-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x4096 : Shape := ⟨3, ![1, 32, 4096]⟩
abbrev S8192x8192 : Shape := ⟨2, ![8192, 8192]⟩
abbrev S8192 : Shape := ⟨1, ![8192]⟩
abbrev S_ : Shape := ⟨0, ![]⟩

class Facts : Prop where
  bcast_S_S1x32x4096 : S_.BroadcastsInDim S1x32x4096 (![] : Fin 0 → Fin S1x32x4096.rank)
  reducesTo_S1x32x4096_S_d0_1_2 : S1x32x4096.ReducesTo [0, 1, 2] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  reducesTo_S8192x8192_S8192_d0 : S8192x8192.ReducesTo [0] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1x32x4096 .f32) (main_arg1 : FVec F S8192x8192 .f32) (main_arg2 : IVec S8192 32) : IVec S_ 1 :=
  let main_v0 : FVec F S1x32x4096 .f32 := Host.absf main_arg0
  let main_cst : FVec F S_ .f32 := constant S_ .f32 0x7F800000#32
  let main_v1 : FVec F S1x32x4096 .f32 := broadcastInDim S1x32x4096 ![] bcast_S_S1x32x4096 main_cst
  let main_v2 : IVec S1x32x4096 1 := cmpf .olt main_v0 main_v1
  let main_c : IVec S_ 1 := constantI S_ 1 1#1
  let main_v3 : IVec S_ 1 := (fun x v => Host.reduce IntOp.andi x v reducesTo_S1x32x4096_S_d0_1_2 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_cst_2 : FVec F S_ .f32 := constant S_ .f32 0x00000000#32
  let main_v9 : FVec F S8192 .f32 := (fun x v => Host.reduceAdd x v reducesTo_S8192x8192_S8192_d0 h_S_) main_arg1 main_cst_2
  let main_cst_3 : FVec F S_ .f32 := constant S_ .f32 0x00000000#32
  let main_v10 : FVec F S8192 .f32 := broadcastInDim S8192 ![] bcast_S_S8192 main_cst_3
  let main_v11 : IVec S8192 1 := cmpf .une main_v9 main_v10
  let main_c_4 : IVec S_ 1 := constantI S_ 1 1#1
  let main_v12 : IVec S_ 1 := (fun x v => Host.reduce IntOp.andi x v reducesTo_S8192_S_d0 h_S_) main_v11 main_c_4
  let main_v13 : IVec S_ 1 := andi main_v8 main_v12
  main_v13
-- ==== Kernel.lean ====
abbrev S1x32x4096 : Shape := ⟨3, ![1, 32, 4096]⟩
abbrev S8192x8192 : Shape := ⟨2, ![8192, 8192]⟩
abbrev S8192 : Shape := ⟨1, ![8192]⟩
abbrev S4096x32 : Shape := ⟨2, ![4096, 32]⟩
abbrev S_ : Shape := ⟨0, ![]⟩
abbrev S8192x1 : Shape := ⟨2, ![8192, 1]⟩
abbrev S8192x32 : Shape := ⟨2, ![8192, 32]⟩
abbrev S1x8192 : Shape := ⟨2, ![1, 8192]⟩
abbrev S2048x2048 : Shape := ⟨2, ![2048, 2048]⟩
abbrev S1x2048 : Shape := ⟨2, ![1, 2048]⟩
abbrev S2048 : Shape := ⟨1, ![2048]⟩
abbrev S1024x2048 : Shape := ⟨2, ![1024, 2048]⟩
abbrev S2048x32 : Shape := ⟨2, ![2048, 32]⟩
abbrev S1024x32 : Shape := ⟨2, ![1024, 32]⟩
abbrev S1x32x8192 : Shape := ⟨3, ![1, 32, 8192]⟩

abbrev nBuf : Space → Nat
  | .hbm => 20
  | .vmem => 12
  | .smem => 0
  | _ => 0

abbrev bufTy : (tb : Table) → Fin (tcTables nBuf tb) → BufTy
  | .hbm, ⟨0, _⟩ => ⟨S1x32x4096, .f32⟩
  | .hbm, ⟨1, _⟩ => ⟨S8192x8192, .f32⟩
  | .hbm, ⟨2, _⟩ => ⟨S8192, .i32⟩
  | .hbm, ⟨3, _⟩ => ⟨S4096x32, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x32, .f32⟩
  | .hbm, ⟨13, _⟩ => ⟨S1x8192, .f32⟩
  | .hbm, ⟨14, _⟩ => ⟨S8192, .f32⟩
  | .hbm, ⟨15, _⟩ => ⟨S8192x1, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S1x32x8192, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S2048x32, .f32⟩
  | .local _ .vmem, ⟨8, _⟩ => ⟨S2048x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | _, _ => ⟨S1x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1x32x4096_S4096x32 : S1x32x4096.ShapeCasts S4096x32
  bcast_S_S8192 : S_.BroadcastsInDim S8192 (![] : Fin 0 → Fin S8192.rank)
  bcast_S8192_S8192x1_0 : S8192.BroadcastsInDim S8192x1 (![0] : Fin 1 → Fin S8192x1.rank)
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x2048_S2048x2048_0_0 : ∀ a, (![0, 0] : Fin 2 → Nat) a + S2048x2048.size a ≤ S2048x2048.size a
  h_S2048x2048 : 0 < S2048x2048.numel
  reduces_S2048x2048_S2048 : S2048x2048.Reduces [0] S2048
  shapeCasts_S2048_S1x2048 : S2048.ShapeCasts S1x2048
  shapeCasts_S1x8192_S8192 : S1x8192.ShapeCasts S8192
  bcast_S8192x1_S8192x32_0_1 : S8192x1.BroadcastsInDim S8192x32 (![0, 1] : Fin 2 → Fin S8192x32.rank)
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S8192x32_S1x32x8192 : S8192x32.ShapeCasts S1x32x8192
  gather_S4096x32_S8192x1_S8192x32_1_0_n_n_0_1_132_wf : GatherDims.WF S4096x32 S8192x1 S8192x32 [1] [0] [] [0] [] 1 ![1, 32]
  dot_S1024x2048_S2048x32_S1024x32_1_0_0_1_n_n_wf : DotDims.WF S1024x2048 S2048x32 S1024x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x8192.size a
  hwx0_0 : ∀ i : grid0.Coords, EltTy.bits .f32 = 32 ∨ (Rect.block (s := S8192x8192) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x32.size a ≤ S8192x32.size a
  hwx1_1 : ∀ i : grid1.Coords, EltTy.bits .f32 = 32 ∨ (Rect.block (s := S8192x32) S2048x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)

variable [Facts₀]

def gather_S4096x32_S8192x1_S8192x32_1_0_n_n_0_1_132 : GatherDims S4096x32 S8192x1 S8192x32 where
  offsetDims := [1]
  collapsedSliceDims := [0]
  operandBatchingDims := []
  startIndicesBatchingDims := []
  startIndexMap := [0]
  indexVectorDim := 1
  sliceSizes := ![1, 32]
  wf := gather_S4096x32_S8192x1_S8192x32_1_0_n_n_0_1_132_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2048x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S1x32x4096 : Shape := ⟨3, ![1, 32, 4096]⟩
abbrev S8192x8192 : Shape := ⟨2, ![8192, 8192]⟩
abbrev S8192 : Shape := ⟨1, ![8192]⟩
abbrev S4096x32 : Shape := ⟨2, ![4096, 32]⟩
abbrev S_ : Shape := ⟨0, ![]⟩
abbrev S8192x1 : Shape := ⟨2, ![8192, 1]⟩
abbrev S8192x32 : Shape := ⟨2, ![8192, 32]⟩
abbrev S1x8192 : Shape := ⟨2, ![1, 8192]⟩
abbrev S1x32x8192 : Shape := ⟨3, ![1, 32, 8192]⟩

abbrev nBuf : Space → Nat
  | .hbm => 20
  | .vmem => 0
  | .smem => 0
  | _ => 0

abbrev bufTy : (tb : Table) → Fin (tcTables nBuf tb) → BufTy
  | .hbm, ⟨0, _⟩ => ⟨S1x32x4096, .f32⟩
  | .hbm, ⟨1, _⟩ => ⟨S8192x8192, .f32⟩
  | .hbm, ⟨2, _⟩ => ⟨S8192, .i32⟩
  | .hbm, ⟨3, _⟩ => ⟨S4096x32, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S8192x32, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x32, .f32⟩
  | .hbm, ⟨19, _⟩ => ⟨S1x32x8192, .f32⟩
  | _, _ => ⟨S1x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  shapeCasts_S1x32x4096_S4096x32 : S1x32x4096.ShapeCasts S4096x32
  bcast_S_S8192 : S_.BroadcastsInDim S8192 (![] : Fin 0 → Fin S8192.rank)
  bcast_S8192_S8192x1_0 : S8192.BroadcastsInDim S8192x1 (![0] : Fin 1 → Fin S8192x1.rank)
  reducesTo_S8192x8192_S8192_d0 : S8192x8192.ReducesTo [0] S8192
  h_S_ : 0 < S_.numel
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  shapeCasts_S8192x32_S1x32x8192 : S8192x32.ShapeCasts S1x32x8192
  gather_S4096x32_S8192x1_S8192x32_1_0_n_n_0_1_132_wf : GatherDims.WF S4096x32 S8192x1 S8192x32 [1] [0] [] [0] [] 1 ![1, 32]
  dot_S8192x8192_S8192x32_S8192x32_1_0_0_1_n_n_wf : DotDims.WF S8192x8192 S8192x32 S8192x32 [1] [0] [0] [1] [] []

variable [Facts₀]

def gather_S4096x32_S8192x1_S8192x32_1_0_n_n_0_1_132 : GatherDims S4096x32 S8192x1 S8192x32 where
  offsetDims := [1]
  collapsedSliceDims := [0]
  operandBatchingDims := []
  startIndicesBatchingDims := []
  startIndexMap := [0]
  indexVectorDim := 1
  sliceSizes := ![1, 32]
  wf := gather_S4096x32_S8192x1_S8192x32_1_0_n_n_0_1_132_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.BColsumRun.lean ====
/-
  The column-sum kernel's body on whole memrefs, case by case of its two conditionals on the grid's second
  coordinate i: at i = 0 the accumulator is zeroed first; at every point the block's 2048 row-sums are added
  to the accumulator; at i = 3 the accumulator is copied to the output block.
-/
import proofs.«170147_j69904887710045_1_alg».proof.Proof.Gen.Kernel.Launch
import proofs.«170147_j69904887710045_1_alg».proof.Proof.Gen.Kernel.Skeleton
import proofs.«170147_j69904887710045_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test (i = 0), from the grid coordinates. -/
abbrev cond0_0 (i : grid0.Coords) : Prop := (Scalar.cmpi .ne (Scalar.extui (Scalar.cmpi .eq (BitVec.ofNat 32 (i 1).val) 0#32)) 0#32) = 1#1
/-- The second conditional's test (i = 3). -/
abbrev cond0_1 (i : grid0.Coords) : Prop := k0_cond2 i = 1#1

/-- The zero offsets of a whole-block access of a rank-2 buffer. -/
theorem off2_zero : (![0, 0] : Fin 2 → Nat) = fun _ => 0 := by funext a; fin_cases a <;> rfl

/-- A list of stores whose last (its head) fills the whole 1 x 2048 block covers the block. -/
theorem cover_acc0 (inb : ∀ a, (![0, 0] : Fin S1x2048.rank → Nat) a + S1x2048.size a ≤ S1x2048.size a) (w : S1x2048.Idx → Elt F .f32)
    (L : List (View.Piece (Elt F) S1x2048 .f32)) (y : S1x2048.Idx) :
    ∃ p ∈ ((⟨Rect.unit ![0, 0] S1x2048.size inb, w⟩ : View.Piece (Elt F) S1x2048 .f32) :: L), y ∈ p.1.set :=
  ⟨_, List.mem_cons_self, View.mem_set_unit_zero off2_zero inb y⟩

set_option maxHeartbeats 1000000 in
/-- A middle point (i = 1, 2): the accumulator xs becomes xs + the block's row-sums; the output's buffer keeps its contents d1. -/
theorem run0_mid (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : ¬cond0_0 i) (hc1 : ¬cond0_1 i)
    (x0 : Vec F S2048x2048 .f32) (d1 : Vec F S1x2048 .f32) (xs : Vec F S1x2048 .f32) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1 ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  sl_unfold_run_names
  rw [View.read_writes_eq_canon _ _ _ (cover_acc0 _ _ _), View.canon_unit_zero off2_zero]
  simp only [View.readAt_eq_ld, harg4.read_unread, harg2.read_unread, View.ld_unit_zero (S := S1x2048) off2_zero, View.ld_unit_zero (S := S2048x2048) off2_zero]

set_option maxHeartbeats 1000000 in
/-- A first point (i = 0): the accumulator, whatever it held, becomes 0 + the block's row-sums; the output's buffer keeps its contents d1. -/
theorem run0_first (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : cond0_0 i) (hc1 : ¬cond0_1 i)
    (x0 : Vec F S2048x2048 .f32) (d1 : Vec F S1x2048 .f32) (xs : Vec F S1x2048 .f32) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1 ∗ owns (c : Thread nD τ) arg4 fullShare (k0_pay2 k0_pay1 x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  sl_unfold_run_names
  rw [View.read_writes_eq_canon _ _ _ (cover_acc0 _ _ _), View.canon_cons_unit_zero off2_zero]
  rw [View.readCov_unit_zero _ off2_zero]
  simp only [View.readAt_eq_ld, harg4.read_unread, harg2.read_unread, View.ld_unit_zero (S := S1x2048) off2_zero, View.ld_unit_zero (S := S2048x2048) off2_zero]

set_option maxHeartbeats 1000000 in
/-- A last point (i = 3): the accumulator xs becomes xs + the block's row-sums, and the output's buffer is filled with that value. -/
theorem run0_last (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : ¬cond0_0 i) (hc1 : cond0_1 i)
    (x0 : Vec F S2048x2048 .f32) (xs : Vec F S1x2048 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay2 xs x0) ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_run_names
    rw [View.read_writes_eq_canon _ _ _ (cover_acc0 _ _ _), View.canon_unit_zero off2_zero]
    rw [View.readCov_unit_zero _ off2_zero]
    simp only [View.readAt_eq_ld, harg4.read_unread, harg2.read_unread, View.ld_unit_zero (S := S1x2048) off2_zero, View.ld_unit_zero (S := S2048x2048) off2_zero]
  iexists _; isplitr
  swap; · iexact HS0
  ipureintro
  sl_unfold_run_names
  rw [View.read_writes_eq_canon _ _ _ (cover_acc0 _ _ _), View.canon_unit_zero off2_zero]
  simp only [View.readAt_eq_ld, harg4.read_unread, harg2.read_unread, View.ld_unit_zero (S := S1x2048) off2_zero, View.ld_unit_zero (S := S2048x2048) off2_zero]

end Cert.Kernel.Hand

end
-- ==== Proof.BColsumDat.lean ====
/-
  The column-sum region's proof data at the buffer contents V the region is entered from: the A-block each point
  reads, the accumulator after each point (partial column sums over the row-blocks met so far in the current
  column-block), the invariant that holds the accumulator between points, and the body obligation at every point.
-/
import proofs.«170147_j69904887710045_1_alg».proof.Proof.BColsumRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over V whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals over the grid: point t = 4 j + i has i = t mod 4 -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The input window is never idle. -/
theorem liveAt0_0 : ∀ t : Fin cfg0.N, cfg0.idle 0 (grid0.coords t) = false := by decide +kernel
/-- Off the last point of a column-block the output window is idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point of a column-block the output window is live. -/
theorem liveAt0_1 : ∀ t : Fin cfg0.N, cond0_1 (grid0.coords t) → cfg0.idle 1 (grid0.coords t) = false := by decide +kernel

/-! ## The accumulator -/

/-- The scratch accumulator, a whole scoped buffer. -/
abbrev scM0 : Memref sig .tc .vmem S1x2048 .f32 := Memref.whole cc0_scratch0

/-- The accumulator after the body at position n: at the first point of a column-block zero plus the block's
    row-sums, afterwards the previous accumulator plus the block's row-sums. -/
def acc0 (c : Dev nD) : (n : ℕ) → n < cfg0.N → Vec F S1x2048 .f32
  | 0, hn => k0_pay2 k0_pay1 (iblk0 V c 0 ⟨0, hn⟩)
  | n + 1, hn =>
    if (n + 1) % 4 = 0 then k0_pay2 k0_pay1 (iblk0 V c 0 ⟨n + 1, hn⟩)
    else k0_pay2 (acc0 c n (Nat.lt_of_succ_lt hn)) (iblk0 V c 0 ⟨n + 1, hn⟩)

theorem acc0_first (c : Dev nD) (t : Fin cfg0.N) (h : t.val % 4 = 0) :
    acc0 V c t.val t.isLt = k0_pay2 k0_pay1 (iblk0 V c 0 t) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The invariant -/

/-- The core's other scoped buffers that are no staging buffer of this region (the second region's staging buffers
    and scratch), each at some contents: they ride through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator split off as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before position n: before the first point the class's (the accumulator at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-! ## The proof data -/

/-- The arrays as the region finds them; after the body at point t the input's buffer at its block and the output's
    at the accumulator (consulted only at the last point of a column-block, where the body copies it there). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the case its position in the column-block selects: the invariant hands it the
    accumulator (at anything at the very first point, at what the point before left afterwards) and takes it back at
    this point's contents; the output's buffer comes back untouched off the last point of a column-block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  have hN : t.val < 16 := lt_of_lt_of_eq t.isLt (show cfg0.N = 16 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1), acc0_first V c t h0]
    by_cases hz : t.val = 0
    · rw [PhiS0_castSucc V c t, PhiS0_zero V c _ _ hz, PhiA0_eq]
      iintro ⟨⟨⟨⟨%ds, HS0⟩, Hr⟩, Hg⟩, Ho, ⟨%d0, H0⟩, ⟨%d1, H1⟩⟩
      iapply (run0_first c Set.univ (grid0.coords t) _ _ _ _ _ _ hc0 hc1 (iblk0 V c 0 t) _ ds _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
    · rw [PhiS0_castSucc V c t, PhiS0_pos V c _ _ hz]
      iintro ⟨⟨⟨HS0, Hr⟩, Hg⟩, Ho, ⟨%d0, H0⟩, ⟨%d1, H1⟩⟩
      iapply (run0_first c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
  · have hc0 : ¬cond0_0 (grid0.coords t) := fun h => h0 ((hcond0_0 t).mp h)
    have hz : t.val ≠ 0 := fun h => h0 (by rw [h])
    rw [PhiS0_castSucc V c t, PhiS0_pos V c _ _ hz, acc0_next V c t h0]
    by_cases h1 : t.val % 4 = 3
    · have hc1 : cond0_1 (grid0.coords t) := (hcond0_1 t).mpr h1
      rw [show (dat0 V c).leavesExact 1 t = owns (c : Thread nD τ) (st0_1 t) fullShare ((dat0 V c).after 1 t) from by
        unfold Dat.leavesExact; rw [liveAt0_1 t hc1], after0_1, acc0_next V c t h0]
      iintro ⟨⟨⟨HS0, Hr⟩, Hg⟩, Ho, ⟨%d0, H0⟩, ⟨%d1, H1⟩⟩
      iapply (run0_last c Set.univ (grid0.coords t) _ _ _ _ _ _ hc0 hc1 (iblk0 V c 0 t) _ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      iintro ⟨⟨⟨HS0, Hr⟩, Hg⟩, Ho, ⟨%d0, H0⟩, ⟨%d1, H1⟩⟩
      iapply (run0_mid c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hr⟩, Hg⟩
  isplitl [HS0 Hr]
  · isplitl [HS0]; · iexists _; iexact HS0
    iexact Hr
  iexact Hg

end Cert.Kernel.Hand

end
-- ==== Proof.BMatmulRun.lean ====
/-
  The matmul kernel's body on whole memrefs, case by case of its two conditionals on the grid's second
  coordinate k: at k = 0 the accumulator is zeroed first; at every point the product of the A-block (1024 x 2048)
  with the scaled block (2048 x 32) is added to the accumulator; at k = 3 the accumulator is copied to the output block.
-/
import proofs.«170147_j69904887710045_1_alg».proof.Proof.Gen.Kernel.Launch
import proofs.«170147_j69904887710045_1_alg».proof.Proof.Gen.Kernel.Skeleton
import proofs.«170147_j69904887710045_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional's test (k = 0), from the grid coordinates. -/
abbrev cond1_0 (i : grid1.Coords) : Prop := (Scalar.cmpi .ne (Scalar.extui (Scalar.cmpi .eq (BitVec.ofNat 32 (i 1).val) 0#32)) 0#32) = 1#1
/-- The second conditional's test (k = 3). -/
abbrev cond1_1 (i : grid1.Coords) : Prop := k1_cond2 i = 1#1

/-- The zero offsets of a whole-block access of a rank-2 buffer. -/
theorem off2_zero_m : (![0, 0] : Fin 2 → Nat) = fun _ => 0 := by funext a; fin_cases a <;> rfl

/-- A list of stores whose last (its head) fills the whole 1024 x 32 block covers the block. -/
theorem cover_acc1 (inb : ∀ a, (![0, 0] : Fin S1024x32.rank → Nat) a + S1024x32.size a ≤ S1024x32.size a) (w : S1024x32.Idx → Elt F .f32)
    (L : List (View.Piece (Elt F) S1024x32 .f32)) (y : S1024x32.Idx) :
    ∃ p ∈ ((⟨Rect.unit ![0, 0] S1024x32.size inb, w⟩ : View.Piece (Elt F) S1024x32 .f32) :: L), y ∈ p.1.set :=
  ⟨_, List.mem_cons_self, View.mem_set_unit_zero off2_zero_m inb y⟩

set_option maxHeartbeats 1000000 in
/-- A middle point (k = 1, 2): the accumulator xs becomes xs + x0 · x1; the output's buffer keeps its contents d2. -/
theorem run1_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x2048 .f32) (x1 : Vec F S2048x32 .f32) (d2 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare xs
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS0
  ipureintro
  sl_unfold_run_names
  rw [View.read_writes_eq_canon _ _ _ (cover_acc1 _ _ _), View.canon_unit_zero off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

set_option maxHeartbeats 1000000 in
/-- A first point (k = 0): the accumulator, whatever it held, becomes 0 + x0 · x1; the output's buffer keeps its contents d2. -/
theorem run1_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x2048 .f32) (x1 : Vec F S2048x32 .f32) (d2 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare xs
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 k1_pay1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS0
  ipureintro
  sl_unfold_run_names
  rw [View.read_writes_eq_canon _ _ _ (cover_acc1 _ _ _), View.canon_cons_unit_zero off2_zero_m]
  rw [View.readCov_unit_zero _ off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

set_option maxHeartbeats 1000000 in
/-- A last point (k = 3): the accumulator xs becomes xs + x0 · x1, and the output's buffer is filled with that value. -/
theorem run1_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x2048 .f32) (x1 : Vec F S2048x32 .f32) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d2, %f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (cover_acc1 _ _ _), View.canon_unit_zero off2_zero_m]
    rw [View.readCov_unit_zero _ off2_zero_m]
    simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]
  iexists _; isplitr
  swap; · iexact HS0
  ipureintro
  sl_unfold_run_names
  rw [View.read_writes_eq_canon _ _ _ (cover_acc1 _ _ _), View.canon_unit_zero off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

end Cert.Kernel.Hand

end
-- ==== Proof.BMatmulDat.lean ====
/-
  The matmul region's proof data at the buffer contents V the region is entered from: the A-block and the scaled
  block each point reads, the accumulator after each point (partial products over the column-blocks met so far in
  the current row-block), the invariant that holds the accumulator between points, and the body obligation.
-/
import proofs.«170147_j69904887710045_1_alg».proof.Proof.BMatmulRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data over V whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid: point t = 4 i + k has k = t mod 4 -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last point of a row-block the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a row-block the output window is live. -/
theorem liveAt1_2 : ∀ t : Fin cfg1.N, cond1_1 (grid1.coords t) → cfg1.idle 2 (grid1.coords t) = false := by decide +kernel

/-! ## The accumulator -/

/-- The scratch accumulator, a whole scoped buffer. -/
abbrev scM1 : Memref sig .tc .vmem S1024x32 .f32 := Memref.whole cc1_scratch0

/-- The accumulator after the body at position n: at the first point of a row-block zero plus the blocks' product,
    afterwards the previous accumulator plus the blocks' product. -/
def acc1 (c : Dev nD) : (n : ℕ) → n < cfg1.N → Vec F S1024x32 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The core's other scoped buffers that are no staging buffer of this region (the first region's staging buffers
    and scratch), each at some contents: they ride through the region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant gives the accumulator as a memref owned at some contents, beside the rest; -/
theorem PhiA1_split (c : Dev nD) :
    (Pipeline.ΦA spec1 c : sProp 𝕄) ⊢ iprop(iprop((∃ d, owns (c : Thread nD τ) scM1 fullShare d) ∗ rest1 c) ∗ (∃ r, prngReg c r)) := by
  unfold Pipeline.ΦA rest1; rw [scopedRest1_eq]; simp only [scM1, owns_whole]
  iintro ⟨⟨HA, HB, HC, HD, HE, HS⟩, Hg⟩
  isplitl [HA HB HC HD HE HS]
  · isplitl [HS]; · iexact HS
    isplitl [HA]; · iexact HA
    isplitl [HB]; · iexact HB
    isplitl [HC]; · iexact HC
    isplitl [HD]; · iexact HD
    iexact HE
  iexact Hg

/-- and is made of them again. -/
theorem PhiA1_join (c : Dev nD) :
    (iprop(iprop((∃ d, owns (c : Thread nD τ) scM1 fullShare d) ∗ rest1 c) ∗ (∃ r, prngReg c r)) : sProp 𝕄) ⊢ Pipeline.ΦA spec1 c := by
  unfold Pipeline.ΦA rest1; rw [scopedRest1_eq]; simp only [scM1, owns_whole]
  iintro ⟨⟨HS, HA, HB, HC, HD, HE⟩, Hg⟩
  isplitl [HA HB HC HD HE HS]
  · isplitl [HA]; · iexact HA
    isplitl [HB]; · iexact HB
    isplitl [HC]; · iexact HC
    isplitl [HD]; · iexact HD
    isplitl [HE]; · iexact HE
    iexact HS
  iexact Hg

/-- The region invariant before position n: before the first point the class's (the accumulator at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-! ## The proof data -/

/-- The arrays as the region finds them; after the body at point t each input's buffer at its block and the
    output's at the accumulator (consulted only at the last point of a row-block, where the body copies it there). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the case its position in the row-block selects: the invariant hands it the
    accumulator (at anything at the very first point, at what the point before left afterwards) and takes it back at
    this point's contents; the output's buffer comes back untouched off the last point of a row-block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := PhiA1_split c $$ HΦ
      icases HΦ' with ⟨⟨⟨%ds, HS0⟩, Hr⟩, Hg⟩
      iapply (run1_first c Set.univ (grid1.coords t) _ _ _ _ _ _ _ _ hc0 hc1 (iblk1 V c 0 t) (iblk1 V c 1 t) _ ds _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [PhiS1_castSucc V c t, PhiS1_pos V c _ _ hz, acc1_next V c t h0]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t h0]
      iintro ⟨⟨⟨HS0, Hr⟩, Hg⟩, Ho, ⟨%d0, H0⟩, ⟨%d1, H1⟩, ⟨%d2, H2⟩⟩
      iapply (run1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hr⟩, Hg⟩, Ho, ⟨%d0, H0⟩, ⟨%d1, H1⟩, ⟨%d2, H2⟩⟩
      iapply (run1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨⟨HS0, Hr⟩, Hg⟩
  iapply (PhiA1_join c)
  isplitl [HS0 Hr]
  · isplitl [HS0]; · iexists _; iexact HS0
    iexact Hr
  iexact Hg

end Cert.Kernel.Hand

end
-- ==== Proof.BKRun.lean ====
/-
  The whole program's run: the buffer contents at each boundary between a stretch of host operations and a kernel
  region (a fold from the launch memory: a stretch applies its operations, a region replaces its arrays by what its
  write-backs leave), the two regions as segments over the proof data of the column-sum and matmul modules, and the run
  itself — every weakly fair execution terminates, nothing faulting, with every unscoped buffer at the last boundary's
  contents.
-/
import proofs.«170147_j69904887710045_1_alg».proof.Proof.BColsumDat
import proofs.«170147_j69904887710045_1_alg».proof.Proof.BMatmulDat

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the reshape and gather of the input): the column-sum region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the column-sum region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the division by the column sums): the matmul region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the matmul region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the final reshape): what the program returns. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave; the
    generator register and the scoped rest go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave; the
    generator register and the scoped rest go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.Kernel.Hand

end
-- ==== Proof.BKFrame.lean ====
/-
  The frame: every argument array ends holding its launch contents. The fold of the boundaries' contents, read at an
  argument's buffer, walks back to the launch memory: a host stretch leaves a buffer it does not write, a region
  leaves a buffer that is none of its arrays and an array it only reads through an input window.
-/
import proofs.«170147_j69904887710045_1_alg».proof.Proof.BKRun
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- `main_arg0` reaches the end as launched: no host stretch writes it, no region has it among its arrays. -/
theorem keep0 (c : Dev nD) : W5 m ρ c (Proc.devRef .tc main_arg0) = m ((c.tc : Thread nD τ).loc main_arg0) := by
  have e5 : W5 m ρ c (Proc.devRef .tc main_arg0) = W4 m ρ c (Proc.devRef .tc main_arg0) := by
    show StableHlo.after hostOps2 (W4 m ρ c) (Proc.devRef .tc main_arg0) = _
    after_results <;> rfl
  have e4 : W4 m ρ c (Proc.devRef .tc main_arg0) = W3 m ρ c (Proc.devRef .tc main_arg0) :=
    W4_of_ne m ρ c main_arg0 (by decide)
  have e3 : W3 m ρ c (Proc.devRef .tc main_arg0) = W2 m ρ c (Proc.devRef .tc main_arg0) := by
    show StableHlo.after hostOps1 (W2 m ρ c) (Proc.devRef .tc main_arg0) = _
    after_results <;> rfl
  have e2 : W2 m ρ c (Proc.devRef .tc main_arg0) = W1 m ρ c (Proc.devRef .tc main_arg0) :=
    W2_of_ne m ρ c main_arg0 (by decide)
  have e1 : W1 m ρ c (Proc.devRef .tc main_arg0) = m ((c.tc : Thread nD τ).loc main_arg0) := by
    show StableHlo.after hostOps0 (W0 m ρ c) (Proc.devRef .tc main_arg0) = _
    after_results <;> rfl
  exact e5.trans (e4.trans (e3.trans (e2.trans e1)))

/-- `main_arg1` reaches the end as launched: no host stretch writes it, both regions only read it through an input window. -/
theorem keep1 (c : Dev nD) : W5 m ρ c (Proc.devRef .tc main_arg1) = m ((c.tc : Thread nD τ).loc main_arg1) := by
  have e5 : W5 m ρ c (Proc.devRef .tc main_arg1) = W4 m ρ c (Proc.devRef .tc main_arg1) := by
    show StableHlo.after hostOps2 (W4 m ρ c) (Proc.devRef .tc main_arg1) = _
    after_results <;> rfl
  have e4 : W4 m ρ c (Proc.devRef .tc main_arg1) = W3 m ρ c (Proc.devRef .tc main_arg1) :=
    (W4_arr m ρ c 0).trans (((dat1 (V3 m ρ) c).arrAt_in 0 rfl _).trans (A_eq1 (V3 m ρ) c 0))
  have e3 : W3 m ρ c (Proc.devRef .tc main_arg1) = W2 m ρ c (Proc.devRef .tc main_arg1) := by
    show StableHlo.after hostOps1 (W2 m ρ c) (Proc.devRef .tc main_arg1) = _
    after_results <;> rfl
  have e2 : W2 m ρ c (Proc.devRef .tc main_arg1) = W1 m ρ c (Proc.devRef .tc main_arg1) :=
    (W2_arr m ρ c 0).trans (((dat0 (V1 m ρ) c).arrAt_in 0 rfl _).trans (A_eq0 (V1 m ρ) c 0))
  have e1 : W1 m ρ c (Proc.devRef .tc main_arg1) = m ((c.tc : Thread nD τ).loc main_arg1) := by
    show StableHlo.after hostOps0 (W0 m ρ c) (Proc.devRef .tc main_arg1) = _
    after_results <;> rfl
  exact e5.trans (e4.trans (e3.trans (e2.trans e1)))

/-- `main_arg2` reaches the end as launched: no host stretch writes it, no region has it among its arrays. -/
theorem keep2 (c : Dev nD) : W5 m ρ c (Proc.devRef .tc main_arg2) = m ((c.tc : Thread nD τ).loc main_arg2) := by
  have e5 : W5 m ρ c (Proc.devRef .tc main_arg2) = W4 m ρ c (Proc.devRef .tc main_arg2) := by
    show StableHlo.after hostOps2 (W4 m ρ c) (Proc.devRef .tc main_arg2) = _
    after_results <;> rfl
  have e4 : W4 m ρ c (Proc.devRef .tc main_arg2) = W3 m ρ c (Proc.devRef .tc main_arg2) :=
    W4_of_ne m ρ c main_arg2 (by decide)
  have e3 : W3 m ρ c (Proc.devRef .tc main_arg2) = W2 m ρ c (Proc.devRef .tc main_arg2) := by
    show StableHlo.after hostOps1 (W2 m ρ c) (Proc.devRef .tc main_arg2) = _
    after_results <;> rfl
  have e2 : W2 m ρ c (Proc.devRef .tc main_arg2) = W1 m ρ c (Proc.devRef .tc main_arg2) :=
    W2_of_ne m ρ c main_arg2 (by decide)
  have e1 : W1 m ρ c (Proc.devRef .tc main_arg2) = m ((c.tc : Thread nD τ).loc main_arg2) := by
    show StableHlo.after hostOps0 (W0 m ρ c) (Proc.devRef .tc main_arg2) = _
    after_results <;> rfl
  exact e5.trans (e4.trans (e3.trans (e2.trans e1)))

/-- Every weakly fair execution of the program terminates, nothing faulting, with the three argument arrays as
    launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (keep0 m ρ c),
    (h c main_arg1 (by decide)).trans (keep1 m ρ c), (h c main_arg2 (by decide)).trans (keep2 m ρ c)⟩) (run_all m ρ)

end Cert.Kernel.Hand

end
-- ==== Proof.ColsumRun.lean ====
/-
  The column-sum kernel's body on whole memrefs, case by case of its two conditionals on the grid's second
  coordinate i: at i = 0 the accumulator is zeroed first; at every point the block's 2048 row-sums are added
  to the accumulator; at i = 3 the accumulator is copied to the output block.
-/
import proofs.«170147_j69904887710045_1_alg».proof.Proof.Gen.KernelIdeal.Launch
import proofs.«170147_j69904887710045_1_alg».proof.Proof.Gen.KernelIdeal.Skeleton
import proofs.«170147_j69904887710045_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test (i = 0), from the grid coordinates. -/
abbrev cond0_0 (i : grid0.Coords) : Prop := (Scalar.cmpi .ne (Scalar.extui (Scalar.cmpi .eq (BitVec.ofNat 32 (i 1).val) 0#32)) 0#32) = 1#1
/-- The second conditional's test (i = 3). -/
abbrev cond0_1 (i : grid0.Coords) : Prop := k0_cond2 i = 1#1

/-- The zero offsets of a whole-block access of a rank-2 buffer. -/
theorem off2_zero : (![0, 0] : Fin 2 → Nat) = fun _ => 0 := by funext a; fin_cases a <;> rfl

/-- A list of stores whose last (its head) fills the whole 1 x 2048 block covers the block. -/
theorem cover_acc0 (inb : ∀ a, (![0, 0] : Fin S1x2048.rank → Nat) a + S1x2048.size a ≤ S1x2048.size a) (w : S1x2048.Idx → Elt F .f32)
    (L : List (View.Piece (Elt F) S1x2048 .f32)) (y : S1x2048.Idx) :
    ∃ p ∈ ((⟨Rect.unit ![0, 0] S1x2048.size inb, w⟩ : View.Piece (Elt F) S1x2048 .f32) :: L), y ∈ p.1.set :=
  ⟨_, List.mem_cons_self, View.mem_set_unit_zero off2_zero inb y⟩

set_option maxHeartbeats 1000000 in
/-- A middle point (i = 1, 2): the accumulator xs becomes xs + the block's row-sums; the output's buffer keeps its contents d1. -/
theorem run0_mid (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : ¬cond0_0 i) (hc1 : ¬cond0_1 i)
    (x0 : Vec F S2048x2048 .f32) (d1 : Vec F S1x2048 .f32) (xs : Vec F S1x2048 .f32) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1 ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  sl_unfold_run_names
  rw [View.read_writes_eq_canon _ _ _ (cover_acc0 _ _ _), View.canon_unit_zero off2_zero]
  simp only [View.readAt_eq_ld, harg4.read_unread, harg2.read_unread, View.ld_unit_zero (S := S1x2048) off2_zero, View.ld_unit_zero (S := S2048x2048) off2_zero]

set_option maxHeartbeats 1000000 in
/-- A first point (i = 0): the accumulator, whatever it held, becomes 0 + the block's row-sums; the output's buffer keeps its contents d1. -/
theorem run0_first (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : cond0_0 i) (hc1 : ¬cond0_1 i)
    (x0 : Vec F S2048x2048 .f32) (d1 : Vec F S1x2048 .f32) (xs : Vec F S1x2048 .f32) (K : PUnit → sProp 𝕄) :
    iprop(owns (c : Thread nD τ) arg2 fullShare x0 ∗ owns (c : Thread nD τ) arg3 fullShare d1 ∗ owns (c : Thread nD τ) arg4 fullShare xs
        ∗ (iprop(owns (c : Thread nD τ) arg2 fullShare x0 ∗ owns (c : Thread nD τ) arg3 fullShare d1 ∗ owns (c : Thread nD τ) arg4 fullShare (k0_pay2 k0_pay1 x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact hf1
    iexact H1
  iexists _; isplitr
  swap; · iexact HS0
  ipureintro
  sl_unfold_run_names
  rw [View.read_writes_eq_canon _ _ _ (cover_acc0 _ _ _), View.canon_cons_unit_zero off2_zero]
  rw [View.readCov_unit_zero _ off2_zero]
  simp only [View.readAt_eq_ld, harg4.read_unread, harg2.read_unread, View.ld_unit_zero (S := S1x2048) off2_zero, View.ld_unit_zero (S := S2048x2048) off2_zero]

set_option maxHeartbeats 1000000 in
/-- A last point (i = 3): the accumulator xs becomes xs + the block's row-sums, and the output's buffer is filled with that value. -/
theorem run0_last (c : Dev nD) (E : Set ℕ) (i : grid0.Coords)
    (arg2 : Memref sig .tc .vmem S2048x2048 .f32) (harg2 : arg2.IsWhole) (arg3 : Memref sig .tc .vmem S1x2048 .f32) (harg3 : arg3.IsWhole)
    (arg4 : Memref sig .tc .vmem S1x2048 .f32) (harg4 : arg4.IsWhole) (hc0 : ¬cond0_0 i) (hc1 : cond0_1 i)
    (x0 : Vec F S2048x2048 .f32) (xs : Vec F S1x2048 .f32) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k0_pay2 xs x0) ∗ owns (c : Thread nD τ) arg4 fullShare (k0_pay2 xs x0)) -∗ K ⟨⟩))
      ⊢ wp frame (wpE (defs₀ (F := F)) Variants.none c none) E (cc0__colsum_kernel i arg2 harg2 arg3 harg3 arg4 harg4) K := by
  simp only [cc0__colsum_kernel_eq_skeleton]; unfold cc0__colsum_kernel_skel
  unfold owns
  iintro ⟨⟨%f0, %hf0, H0⟩, ⟨%d1, %f1, %hf1, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_run_names
    rw [View.read_writes_eq_canon _ _ _ (cover_acc0 _ _ _), View.canon_unit_zero off2_zero]
    rw [View.readCov_unit_zero _ off2_zero]
    simp only [View.readAt_eq_ld, harg4.read_unread, harg2.read_unread, View.ld_unit_zero (S := S1x2048) off2_zero, View.ld_unit_zero (S := S2048x2048) off2_zero]
  iexists _; isplitr
  swap; · iexact HS0
  ipureintro
  sl_unfold_run_names
  rw [View.read_writes_eq_canon _ _ _ (cover_acc0 _ _ _), View.canon_unit_zero off2_zero]
  simp only [View.readAt_eq_ld, harg4.read_unread, harg2.read_unread, View.ld_unit_zero (S := S1x2048) off2_zero, View.ld_unit_zero (S := S2048x2048) off2_zero]

end Cert.KernelIdeal.Hand

end
-- ==== Proof.ColsumDat.lean ====
/-
  The column-sum region's proof data at the buffer contents V the region is entered from: the A-block each point
  reads, the accumulator after each point (partial column sums over the row-blocks met so far in the current
  column-block), the invariant that holds the accumulator between points, and the body obligation at every point.
-/
import proofs.«170147_j69904887710045_1_alg».proof.Proof.ColsumRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over V whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The conditionals over the grid: point t = 4 j + i has i = t mod 4 -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
/-- The input window is never idle. -/
theorem liveAt0_0 : ∀ t : Fin cfg0.N, cfg0.idle 0 (grid0.coords t) = false := by decide +kernel
/-- Off the last point of a column-block the output window is idle and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point of a column-block the output window is live. -/
theorem liveAt0_1 : ∀ t : Fin cfg0.N, cond0_1 (grid0.coords t) → cfg0.idle 1 (grid0.coords t) = false := by decide +kernel

/-! ## The accumulator -/

/-- The scratch accumulator, a whole scoped buffer. -/
abbrev scM0 : Memref sig .tc .vmem S1x2048 .f32 := Memref.whole cc0_scratch0

/-- The accumulator after the body at position n: at the first point of a column-block zero plus the block's
    row-sums, afterwards the previous accumulator plus the block's row-sums. -/
def acc0 (c : Dev nD) : (n : ℕ) → n < cfg0.N → Vec F S1x2048 .f32
  | 0, hn => k0_pay2 k0_pay1 (iblk0 V c 0 ⟨0, hn⟩)
  | n + 1, hn =>
    if (n + 1) % 4 = 0 then k0_pay2 k0_pay1 (iblk0 V c 0 ⟨n + 1, hn⟩)
    else k0_pay2 (acc0 c n (Nat.lt_of_succ_lt hn)) (iblk0 V c 0 ⟨n + 1, hn⟩)

theorem acc0_first (c : Dev nD) (t : Fin cfg0.N) (h : t.val % 4 = 0) :
    acc0 V c t.val t.isLt = k0_pay2 k0_pay1 (iblk0 V c 0 t) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The invariant -/

/-- The core's other scoped buffers that are no staging buffer of this region (the second region's staging buffers
    and scratch), each at some contents: they ride through the region untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator split off as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before position n: before the first point the class's (the accumulator at anything);
    afterwards the accumulator at what the point before left, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-! ## The proof data -/

/-- The arrays as the region finds them; after the body at point t the input's buffer at its block and the output's
    at the accumulator (consulted only at the last point of a column-block, where the body copies it there). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the case its position in the column-block selects: the invariant hands it the
    accumulator (at anything at the very first point, at what the point before left afterwards) and takes it back at
    this point's contents; the output's buffer comes back untouched off the last point of a column-block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  have hN : t.val < 16 := lt_of_lt_of_eq t.isLt (show cfg0.N = 16 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1), acc0_first V c t h0]
    by_cases hz : t.val = 0
    · rw [PhiS0_castSucc V c t, PhiS0_zero V c _ _ hz, PhiA0_eq]
      iintro ⟨⟨⟨⟨%ds, HS0⟩, Hr⟩, Hg⟩, Ho, ⟨%d0, H0⟩, ⟨%d1, H1⟩⟩
      iapply (run0_first c Set.univ (grid0.coords t) _ _ _ _ _ _ hc0 hc1 (iblk0 V c 0 t) _ ds _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
    · rw [PhiS0_castSucc V c t, PhiS0_pos V c _ _ hz]
      iintro ⟨⟨⟨HS0, Hr⟩, Hg⟩, Ho, ⟨%d0, H0⟩, ⟨%d1, H1⟩⟩
      iapply (run0_first c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1
  · have hc0 : ¬cond0_0 (grid0.coords t) := fun h => h0 ((hcond0_0 t).mp h)
    have hz : t.val ≠ 0 := fun h => h0 (by rw [h])
    rw [PhiS0_castSucc V c t, PhiS0_pos V c _ _ hz, acc0_next V c t h0]
    by_cases h1 : t.val % 4 = 3
    · have hc1 : cond0_1 (grid0.coords t) := (hcond0_1 t).mpr h1
      rw [show (dat0 V c).leavesExact 1 t = owns (c : Thread nD τ) (st0_1 t) fullShare ((dat0 V c).after 1 t) from by
        unfold Dat.leavesExact; rw [liveAt0_1 t hc1], after0_1, acc0_next V c t h0]
      iintro ⟨⟨⟨HS0, Hr⟩, Hg⟩, Ho, ⟨%d0, H0⟩, ⟨%d1, H1⟩⟩
      iapply (run0_last c Set.univ (grid0.coords t) _ _ _ _ _ _ hc0 hc1 (iblk0 V c 0 t) _ _)
      isplitl [H0]; · iexact H0
      isplitl [H1]; · iexists _; iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      iintro ⟨⟨⟨HS0, Hr⟩, Hg⟩, Ho, ⟨%d0, H0⟩, ⟨%d1, H1⟩⟩
      iapply (run0_mid c Set.univ (grid0.coords t) _ _ _ _ _ _ hc0 hc1 (iblk0 V c 0 t) _ _ _)
      isplitl [H0]; · iexact H0
      isplitl [H1]; · iexact H1
      isplitl [HS0]; · iexact HS0
      iintro ⟨H0, H1, HS0⟩
      isplitl [HS0 Hr Hg]
      · isplitl [HS0 Hr]
        · isplitl [HS0]; · iexact HS0
          iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hr⟩, Hg⟩
  isplitl [HS0 Hr]
  · isplitl [HS0]; · iexists _; iexact HS0
    iexact Hr
  iexact Hg

end Cert.KernelIdeal.Hand

end
-- ==== Proof.MatmulRun.lean ====
/-
  The matmul kernel's body on whole memrefs, case by case of its two conditionals on the grid's second
  coordinate k: at k = 0 the accumulator is zeroed first; at every point the product of the A-block (1024 x 2048)
  with the scaled block (2048 x 32) is added to the accumulator; at k = 3 the accumulator is copied to the output block.
-/
import proofs.«170147_j69904887710045_1_alg».proof.Proof.Gen.KernelIdeal.Launch
import proofs.«170147_j69904887710045_1_alg».proof.Proof.Gen.KernelIdeal.Skeleton
import proofs.«170147_j69904887710045_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional's test (k = 0), from the grid coordinates. -/
abbrev cond1_0 (i : grid1.Coords) : Prop := (Scalar.cmpi .ne (Scalar.extui (Scalar.cmpi .eq (BitVec.ofNat 32 (i 1).val) 0#32)) 0#32) = 1#1
/-- The second conditional's test (k = 3). -/
abbrev cond1_1 (i : grid1.Coords) : Prop := k1_cond2 i = 1#1

/-- The zero offsets of a whole-block access of a rank-2 buffer. -/
theorem off2_zero_m : (![0, 0] : Fin 2 → Nat) = fun _ => 0 := by funext a; fin_cases a <;> rfl

/-- A list of stores whose last (its head) fills the whole 1024 x 32 block covers the block. -/
theorem cover_acc1 (inb : ∀ a, (![0, 0] : Fin S1024x32.rank → Nat) a + S1024x32.size a ≤ S1024x32.size a) (w : S1024x32.Idx → Elt F .f32)
    (L : List (View.Piece (Elt F) S1024x32 .f32)) (y : S1024x32.Idx) :
    ∃ p ∈ ((⟨Rect.unit ![0, 0] S1024x32.size inb, w⟩ : View.Piece (Elt F) S1024x32 .f32) :: L), y ∈ p.1.set :=
  ⟨_, List.mem_cons_self, View.mem_set_unit_zero off2_zero_m inb y⟩

set_option maxHeartbeats 1000000 in
/-- A middle point (k = 1, 2): the accumulator xs becomes xs + x0 · x1; the output's buffer keeps its contents d2. -/
theorem run1_mid (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬cond1_0 i) (hc1 : ¬cond1_1 i)
    (x0 : Vec F S1024x2048 .f32) (x1 : Vec F S2048x32 .f32) (d2 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare xs
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS0
  ipureintro
  sl_unfold_run_names
  rw [View.read_writes_eq_canon _ _ _ (cover_acc1 _ _ _), View.canon_unit_zero off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

set_option maxHeartbeats 1000000 in
/-- A first point (k = 0): the accumulator, whatever it held, becomes 0 + x0 · x1; the output's buffer keeps its contents d2. -/
theorem run1_first (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : cond1_0 i) (hc1 : ¬cond1_1 i)
    (x0 : Vec F S1024x2048 .f32) (x1 : Vec F S2048x32 .f32) (d2 : Vec F S1024x32 .f32) (xs : Vec F S1024x32 .f32) (K : PUnit → sProp 𝕄) :
    iprop(owns (c : Thread nD τ) arg2 fullShare x0 ∗ owns (c : Thread nD τ) arg3 fullShare x1 ∗ owns (c : Thread nD τ) arg4 fullShare d2 ∗ owns (c : Thread nD τ) arg5 fullShare xs
        ∗ (iprop(owns (c : Thread nD τ) arg2 fullShare x0 ∗ owns (c : Thread nD τ) arg3 fullShare x1 ∗ owns (c : Thread nD τ) arg4 fullShare d2 ∗ owns (c : Thread nD τ) arg5 fullShare (k1_pay2 x0 x1 k1_pay1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact hf2
    iexact H2
  iexists _; isplitr
  swap; · iexact HS0
  ipureintro
  sl_unfold_run_names
  rw [View.read_writes_eq_canon _ _ _ (cover_acc1 _ _ _), View.canon_cons_unit_zero off2_zero_m]
  rw [View.readCov_unit_zero _ off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

set_option maxHeartbeats 1000000 in
/-- A last point (k = 3): the accumulator xs becomes xs + x0 · x1, and the output's buffer is filled with that value. -/
theorem run1_last (c : Dev nD) (E : Set ℕ) (i : grid1.Coords)
    (arg2 : Memref sig .tc .vmem S1024x2048 .f32) (harg2 : arg2.IsWhole) (arg3 : Memref sig .tc .vmem S2048x32 .f32) (harg3 : arg3.IsWhole)
    (arg4 : Memref sig .tc .vmem S1024x32 .f32) (harg4 : arg4.IsWhole) (arg5 : Memref sig .tc .vmem S1024x32 .f32) (harg5 : arg5.IsWhole)
    (hc0 : ¬cond1_0 i) (hc1 : cond1_1 i)
    (x0 : Vec F S1024x2048 .f32) (x1 : Vec F S2048x32 .f32) (xs : Vec F S1024x32 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%d2, %f2, %hf2, H2⟩, ⟨%fs0, %hfs0, HS0⟩, Hk⟩
  obtain rfl := harg2.eq_unread hf0; obtain rfl := harg3.eq_unread hf1; obtain rfl := harg5.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (cover_acc1 _ _ _), View.canon_unit_zero off2_zero_m]
    rw [View.readCov_unit_zero _ off2_zero_m]
    simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]
  iexists _; isplitr
  swap; · iexact HS0
  ipureintro
  sl_unfold_run_names
  rw [View.read_writes_eq_canon _ _ _ (cover_acc1 _ _ _), View.canon_unit_zero off2_zero_m]
  simp only [View.readAt_eq_ld, harg5.read_unread, harg3.read_unread, harg2.read_unread, View.ld_unit_zero (S := S1024x32) off2_zero_m, View.ld_unit_zero (S := S2048x32) off2_zero_m, View.ld_unit_zero (S := S1024x2048) off2_zero_m]

end Cert.KernelIdeal.Hand

end
-- ==== Proof.MatmulDat.lean ====
/-
  The matmul region's proof data at the buffer contents V the region is entered from: the A-block and the scaled
  block each point reads, the accumulator after each point (partial products over the column-blocks met so far in
  the current row-block), the invariant that holds the accumulator between points, and the body obligation.
-/
import proofs.«170147_j69904887710045_1_alg».proof.Proof.MatmulRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, for any proof data over V whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The conditionals over the grid: point t = 4 i + k has k = t mod 4 -/

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)
/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last point of a row-block the output window is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point of a row-block the output window is live. -/
theorem liveAt1_2 : ∀ t : Fin cfg1.N, cond1_1 (grid1.coords t) → cfg1.idle 2 (grid1.coords t) = false := by decide +kernel

/-! ## The accumulator -/

/-- The scratch accumulator, a whole scoped buffer. -/
abbrev scM1 : Memref sig .tc .vmem S1024x32 .f32 := Memref.whole cc1_scratch0

/-- The accumulator after the body at position n: at the first point of a row-block zero plus the blocks' product,
    afterwards the previous accumulator plus the blocks' product. -/
def acc1 (c : Dev nD) : (n : ℕ) → n < cfg1.N → Vec F S1024x32 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (acc1 c n (Nat.lt_of_succ_lt hn))

theorem acc1_first (c : Dev nD) (t : Fin cfg1.N) (h : t.val % 4 = 0) :
    acc1 V c t.val t.isLt = k1_pay2 (iblk1 V c 0 t) (iblk1 V c 1 t) k1_pay1 := by
  obtain ⟨n, hn⟩ := t
  cases n with
  | zero => rfl
  | succ n => exact if_pos h

theorem acc1_next (c : Dev nD) (t : Fin cfg1.N) (h : ¬t.val % 4 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The core's other scoped buffers that are no staging buffer of this region (the first region's staging buffers
    and scratch), each at some contents: they ride through the region untouched. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f))

/-- The class invariant gives the accumulator as a memref owned at some contents, beside the rest; -/
theorem PhiA1_split (c : Dev nD) :
    (Pipeline.ΦA spec1 c : sProp 𝕄) ⊢ iprop(iprop((∃ d, owns (c : Thread nD τ) scM1 fullShare d) ∗ rest1 c) ∗ (∃ r, prngReg c r)) := by
  unfold Pipeline.ΦA rest1; rw [scopedRest1_eq]; simp only [scM1, owns_whole]
  iintro ⟨⟨HA, HB, HC, HD, HE, HS⟩, Hg⟩
  isplitl [HA HB HC HD HE HS]
  · isplitl [HS]; · iexact HS
    isplitl [HA]; · iexact HA
    isplitl [HB]; · iexact HB
    isplitl [HC]; · iexact HC
    isplitl [HD]; · iexact HD
    iexact HE
  iexact Hg

/-- and is made of them again. -/
theorem PhiA1_join (c : Dev nD) :
    (iprop(iprop((∃ d, owns (c : Thread nD τ) scM1 fullShare d) ∗ rest1 c) ∗ (∃ r, prngReg c r)) : sProp 𝕄) ⊢ Pipeline.ΦA spec1 c := by
  unfold Pipeline.ΦA rest1; rw [scopedRest1_eq]; simp only [scM1, owns_whole]
  iintro ⟨⟨HS, HA, HB, HC, HD, HE⟩, Hg⟩
  isplitl [HA HB HC HD HE HS]
  · isplitl [HA]; · iexact HA
    isplitl [HB]; · iexact HB
    isplitl [HC]; · iexact HC
    isplitl [HD]; · iexact HD
    isplitl [HE]; · iexact HE
    iexact HS
  iexact Hg

/-- The region invariant before position n: before the first point the class's (the accumulator at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 c) ∗ (∃ r, prngReg c r)) := by
  cases n with
  | zero => exact absurd rfl hz
  | succ n => rfl

/-! ## The proof data -/

/-- The arrays as the region finds them; after the body at point t each input's buffer at its block and the
    output's at the accumulator (consulted only at the last point of a row-block, where the body copies it there). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the case its position in the row-block selects: the invariant hands it the
    accumulator (at anything at the very first point, at what the point before left afterwards) and takes it back at
    this point's contents; the output's buffer comes back untouched off the last point of a row-block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := PhiA1_split c $$ HΦ
      icases HΦ' with ⟨⟨⟨%ds, HS0⟩, Hr⟩, Hg⟩
      iapply (run1_first c Set.univ (grid1.coords t) _ _ _ _ _ _ _ _ hc0 hc1 (iblk1 V c 0 t) (iblk1 V c 1 t) _ ds _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS0, Hr⟩, Hg⟩, Ho, ⟨%d0, H0⟩, ⟨%d1, H1⟩, ⟨%d2, H2⟩⟩
      iapply (run1_first c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [PhiS1_castSucc V c t, PhiS1_pos V c _ _ hz, acc1_next V c t h0]
    by_cases h1 : t.val % 4 = 3
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2, acc1_next V c t h0]
      iintro ⟨⟨⟨HS0, Hr⟩, Hg⟩, Ho, ⟨%d0, H0⟩, ⟨%d1, H1⟩, ⟨%d2, H2⟩⟩
      iapply (run1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨⟨HS0, Hr⟩, Hg⟩, Ho, ⟨%d0, H0⟩, ⟨%d1, H1⟩, ⟨%d2, H2⟩⟩
      iapply (run1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS0]; · iexact HS0
      iintro ⟨H0, H1, H2, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega)]
  iintro ⟨⟨HS0, Hr⟩, Hg⟩
  iapply (PhiA1_join c)
  isplitl [HS0 Hr]
  · isplitl [HS0]; · iexists _; iexact HS0
    iexact Hr
  iexact Hg

end Cert.KernelIdeal.Hand

end
-- ==== Proof.KRun.lean ====
/-
  The whole program's run: the buffer contents at each boundary between a stretch of host operations and a kernel
  region (a fold from the launch memory: a stretch applies its operations, a region replaces its arrays by what its
  write-backs leave), the two regions as segments over the proof data of the column-sum and matmul modules, and the run
  itself — every weakly fair execution terminates, nothing faulting, with every unscoped buffer at the last boundary's
  contents.
-/
import proofs.«170147_j69904887710045_1_alg».proof.Proof.ColsumDat
import proofs.«170147_j69904887710045_1_alg».proof.Proof.MatmulDat

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the reshape and gather of the input): the column-sum region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the column-sum region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the division by the column sums): the matmul region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the matmul region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch (the final reshape): what the program returns. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave; the
    generator register and the scoped rest go into the invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout0 (V1 m ρ) c
    unfold Pipeline.ΦA at h
    rw [Pipeline.ownSems0_none, show (pdats m ρ 0 c).Φ (Fin.last _) = (dat0 (V1 m ρ) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave; the
    generator register and the scoped rest go into the invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    have h := hout1 (V3 m ρ) c
    unfold Pipeline.ΦA at h
    rw [Pipeline.ownSems0_none, show (pdats m ρ 1 c).Φ (Fin.last _) = (dat1 (V3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state holds every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Hand

end
-- ==== Proof.KFrame.lean ====
/-
  The frame: every argument array ends holding its launch contents. The fold of the boundaries' contents, read at an
  argument's buffer, walks back to the launch memory: a host stretch leaves a buffer it does not write, a region
  leaves a buffer that is none of its arrays and an array it only reads through an input window.
-/
import proofs.«170147_j69904887710045_1_alg».proof.Proof.KRun
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- `main_arg0` reaches the end as launched: no host stretch writes it, no region has it among its arrays. -/
theorem keep0 (c : Dev nD) : W5 m ρ c (Proc.devRef .tc main_arg0) = m ((c.tc : Thread nD τ).loc main_arg0) := by
  have e5 : W5 m ρ c (Proc.devRef .tc main_arg0) = W4 m ρ c (Proc.devRef .tc main_arg0) := by
    show StableHlo.after hostOps2 (W4 m ρ c) (Proc.devRef .tc main_arg0) = _
    after_results <;> rfl
  have e4 : W4 m ρ c (Proc.devRef .tc main_arg0) = W3 m ρ c (Proc.devRef .tc main_arg0) :=
    W4_of_ne m ρ c main_arg0 (by decide)
  have e3 : W3 m ρ c (Proc.devRef .tc main_arg0) = W2 m ρ c (Proc.devRef .tc main_arg0) := by
    show StableHlo.after hostOps1 (W2 m ρ c) (Proc.devRef .tc main_arg0) = _
    after_results <;> rfl
  have e2 : W2 m ρ c (Proc.devRef .tc main_arg0) = W1 m ρ c (Proc.devRef .tc main_arg0) :=
    W2_of_ne m ρ c main_arg0 (by decide)
  have e1 : W1 m ρ c (Proc.devRef .tc main_arg0) = m ((c.tc : Thread nD τ).loc main_arg0) := by
    show StableHlo.after hostOps0 (W0 m ρ c) (Proc.devRef .tc main_arg0) = _
    after_results <;> rfl
  exact e5.trans (e4.trans (e3.trans (e2.trans e1)))

/-- `main_arg1` reaches the end as launched: no host stretch writes it, both regions only read it through an input window. -/
theorem keep1 (c : Dev nD) : W5 m ρ c (Proc.devRef .tc main_arg1) = m ((c.tc : Thread nD τ).loc main_arg1) := by
  have e5 : W5 m ρ c (Proc.devRef .tc main_arg1) = W4 m ρ c (Proc.devRef .tc main_arg1) := by
    show StableHlo.after hostOps2 (W4 m ρ c) (Proc.devRef .tc main_arg1) = _
    after_results <;> rfl
  have e4 : W4 m ρ c (Proc.devRef .tc main_arg1) = W3 m ρ c (Proc.devRef .tc main_arg1) :=
    (W4_arr m ρ c 0).trans (((dat1 (V3 m ρ) c).arrAt_in 0 rfl _).trans (A_eq1 (V3 m ρ) c 0))
  have e3 : W3 m ρ c (Proc.devRef .tc main_arg1) = W2 m ρ c (Proc.devRef .tc main_arg1) := by
    show StableHlo.after hostOps1 (W2 m ρ c) (Proc.devRef .tc main_arg1) = _
    after_results <;> rfl
  have e2 : W2 m ρ c (Proc.devRef .tc main_arg1) = W1 m ρ c (Proc.devRef .tc main_arg1) :=
    (W2_arr m ρ c 0).trans (((dat0 (V1 m ρ) c).arrAt_in 0 rfl _).trans (A_eq0 (V1 m ρ) c 0))
  have e1 : W1 m ρ c (Proc.devRef .tc main_arg1) = m ((c.tc : Thread nD τ).loc main_arg1) := by
    show StableHlo.after hostOps0 (W0 m ρ c) (Proc.devRef .tc main_arg1) = _
    after_results <;> rfl
  exact e5.trans (e4.trans (e3.trans (e2.trans e1)))

/-- `main_arg2` reaches the end as launched: no host stretch writes it, no region has it among its arrays. -/
theorem keep2 (c : Dev nD) : W5 m ρ c (Proc.devRef .tc main_arg2) = m ((c.tc : Thread nD τ).loc main_arg2) := by
  have e5 : W5 m ρ c (Proc.devRef .tc main_arg2) = W4 m ρ c (Proc.devRef .tc main_arg2) := by
    show StableHlo.after hostOps2 (W4 m ρ c) (Proc.devRef .tc main_arg2) = _
    after_results <;> rfl
  have e4 : W4 m ρ c (Proc.devRef .tc main_arg2) = W3 m ρ c (Proc.devRef .tc main_arg2) :=
    W4_of_ne m ρ c main_arg2 (by decide)
  have e3 : W3 m ρ c (Proc.devRef .tc main_arg2) = W2 m ρ c (Proc.devRef .tc main_arg2) := by
    show StableHlo.after hostOps1 (W2 m ρ c) (Proc.devRef .tc main_arg2) = _
    after_results <;> rfl
  have e2 : W2 m ρ c (Proc.devRef .tc main_arg2) = W1 m ρ c (Proc.devRef .tc main_arg2) :=
    W2_of_ne m ρ c main_arg2 (by decide)
  have e1 : W1 m ρ c (Proc.devRef .tc main_arg2) = m ((c.tc : Thread nD τ).loc main_arg2) := by
    show StableHlo.after hostOps0 (W0 m ρ c) (Proc.devRef .tc main_arg2) = _
    after_results <;> rfl
  exact e5.trans (e4.trans (e3.trans (e2.trans e1)))

/-- Every weakly fair execution of the program terminates, nothing faulting, with the three argument arrays as
    launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0 (by decide)).trans (keep0 m ρ c),
    (h c main_arg1 (by decide)).trans (keep1 m ρ c), (h c main_arg2 (by decide)).trans (keep2 m ρ c)⟩) (run_all m ρ)

end Cert.KernelIdeal.Hand

end
-- ==== Proof.Spec.lean ====
/-
  The mathematics of column normalisation followed by a product, stated over the extended reals.

  `A` is a square array, `up` a tall one. `cs A j` is the sum of column `j` of `A`. `G A up` divides every entry of `A` by the
  sum of its column and multiplies the result with `up`. When no column sum is zero the division can be moved from the
  left factor of every product to the right one: `(a / s) · u = a · (u / s)`, which over the extended reals needs only
  that multiplication is commutative and associative (`a / s` is `a · s⁻¹` off `s = 0`). Last, a sum over `8192` terms
  is the sum of its four consecutive blocks of `2048` terms, also written as the left-nested sum an accumulation from
  zero produces.
-/
import Idealize.ShloMosaic.PureOps.Ideal
import Idealize.ShloMosaic.Lib.ValueIdx
import Mathlib.Algebra.BigOperators.Fin
import Mathlib.Logic.Equiv.Fin.Basic

noncomputable section

open scoped BigOperators

namespace Cert.ColNorm

open Idealize.ShloMosaic Idealize.ShloMosaic.ValueIdx

abbrev SA : Shape := ⟨2, ![8192, 8192]⟩
abbrev SU : Shape := ⟨2, ![8192, 32]⟩

/-- column sum j of A -/
def cs (A : SA.Idx → EReal) (j : Fin 8192) : EReal := ∑ i : Fin 8192, A (ix2 i j)

/-- the reference's arrangement -/
def G (A : SA.Idx → EReal) (up : SU.Idx → EReal) : SU.Idx → EReal :=
  fun x => ∑ j : Fin 8192, Ideal.div (A (ix2 (x 0) j)) (cs A j) * up (ix2 j (x 1))

/-- Off a zero divisor, dividing the left factor of a product is dividing the right one. -/
theorem div_mul_eq_mul_div (a u s : EReal) (hs : s ≠ 0) : Ideal.div a s * u = a * Ideal.div u s := by
  unfold Ideal.div
  rw [if_neg hs, if_neg hs, mul_assoc, mul_comm s⁻¹ u]

/-- With no zero column sum, `G` is the product of `A` with `up` divided row by row by the column sums. -/
theorem G_eq_scaled (A : SA.Idx → EReal) (up : SU.Idx → EReal) (h : ∀ j, cs A j ≠ 0) (i : Fin 8192) (c : Fin 32) :
    G A up (ix2 i c) = ∑ j : Fin 8192, A (ix2 i j) * Ideal.div (up (ix2 j c)) (cs A j) :=
  Finset.sum_congr rfl fun j _ => div_mul_eq_mul_div _ _ _ (h j)

/-- A sum over `8192` terms is the sum of its four blocks of `2048` consecutive terms. -/
theorem sum_blocks4 (f : Fin 8192 → EReal) :
    ∑ i : Fin 8192, f i = ∑ k : Fin 4, ∑ r : Fin 2048, f ⟨2048 * k.val + r.val, by omega⟩ := by
  calc ∑ i : Fin 8192, f i
      = ∑ p : Fin 4 × Fin 2048, f (finProdFinEquiv p) := (Equiv.sum_comp (finProdFinEquiv (m := 4) (n := 2048)) f).symm
    _ = ∑ k : Fin 4, ∑ r : Fin 2048, f (finProdFinEquiv (k, r)) := Fintype.sum_prod_type _
    _ = _ := by
      refine Finset.sum_congr rfl fun k _ => Finset.sum_congr rfl fun r _ => congrArg f (Fin.ext ?_)
      show r.val + 2048 * k.val = 2048 * k.val + r.val
      exact Nat.add_comm _ _

/-- The same, as the left-nested sum of the four blocks from zero. -/
theorem sum_blocks4_fold (f : Fin 8192 → EReal) :
    ∑ i : Fin 8192, f i
      = (((0 + ∑ r : Fin 2048, f ⟨r.val, by omega⟩) + ∑ r : Fin 2048, f ⟨2048 + r.val, by omega⟩)
          + ∑ r : Fin 2048, f ⟨4096 + r.val, by omega⟩) + ∑ r : Fin 2048, f ⟨6144 + r.val, by omega⟩ := by
  rw [sum_blocks4 f, Fin.sum_univ_four, zero_add]
  refine congrArg₂ (· + ·) (congrArg₂ (· + ·) (congrArg₂ (· + ·) ?_ ?_) ?_) ?_ <;>
    exact Finset.sum_congr rfl fun r _ => congrArg f (Fin.ext (by simp))

end Cert.ColNorm

end
-- ==== Proof.KValue.lean ====
/-
  The program's result read back at the ideal instance. Through the last reshape it is the matmul region's output
  array; that array is row i, column q ↦ Σ_j A(i,j) · S(j,q) of the region's entry contents, where S is what the
  second host stretch leaves: the gathered parent rows divided, row by row, by the column sums the first region
  left. With every column sum nonzero this is the reference's arrangement Σ_j (A(i,j) / cs j) · up(j,q).
-/
import proofs.«170147_j69904887710045_1_alg».proof.Proof.KRun
import proofs.«170147_j69904887710045_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Idealize.ShloMosaic.StableHlo

variable (m : (ℓ : Loc nD τ sig) → Buf (Elt Ideal) ℓ) (ρ : Dev nD → PrngReg)

/-- The parent rows gathered by the (wrapped) indices: what the first host stretch leaves in its last buffer. -/
def upK (c : Dev nD) : FVec Ideal S8192x32 .f32 :=
  Host.gather gather_S4096x32_S8192x1_S8192x32_1_0_n_n_0_1_132 (shapeCast _ (m ((c.tc : Thread nD τ).loc main_arg0)) shapeCasts_S1x32x4096_S4096x32)
    (broadcastInDim S8192x1 ![0] bcast_S8192_S8192x1_0 (select (cmpi .slt (m ((c.tc : Thread nD τ).loc main_arg2)) (broadcastInDim S8192 ![] bcast_S_S8192 (constantI S_ 32 0#32)))
      (addi (m ((c.tc : Thread nD τ).loc main_arg2)) (broadcastInDim S8192 ![] bcast_S_S8192 (constantI S_ 32 4096#32))) (m ((c.tc : Thread nD τ).loc main_arg2))))

theorem W1_v7 (c : Dev nD) : W1 m ρ c (Proc.devRef .tc main_v7) = upK m c := by
  show StableHlo.after hostOps0 (W0 m ρ c) (Proc.devRef .tc main_v7) = _
  unfold upK
  after_results <;> rfl

theorem W1_arg1 (c : Dev nD) : W1 m ρ c (Proc.devRef .tc main_arg1) = m ((c.tc : Thread nD τ).loc main_arg1) := by
  show StableHlo.after hostOps0 (W0 m ρ c) (Proc.devRef .tc main_arg1) = _
  after_results <;> rfl

/-- The first region's input array comes out as it went in; no later stretch writes it. -/
theorem W2_arg1 (c : Dev nD) : W2 m ρ c (Proc.devRef .tc main_arg1) = m ((c.tc : Thread nD τ).loc main_arg1) :=
  (W2_arr m ρ c 0).trans (((dat0 (V1 m ρ) c).arrAt_in 0 rfl _).trans ((A_eq0 (V1 m ρ) c 0).trans (W1_arg1 m ρ c)))

theorem W2_v7 (c : Dev nD) : W2 m ρ c (Proc.devRef .tc main_v7) = upK m c :=
  (W2_of_ne m ρ c main_v7 (by decide)).trans (W1_v7 m ρ c)

theorem W3_arg1 (c : Dev nD) : W3 m ρ c (Proc.devRef .tc main_arg1) = m ((c.tc : Thread nD τ).loc main_arg1) := by
  have e : W3 m ρ c (Proc.devRef .tc main_arg1) = W2 m ρ c (Proc.devRef .tc main_arg1) := by
    show StableHlo.after hostOps1 (W2 m ρ c) (Proc.devRef .tc main_arg1) = _
    after_results <;> rfl
  exact e.trans (W2_arg1 m ρ c)

/-- What the first region and the first stretch leave in the two buffers the second stretch reads. -/
def v7At (c : Dev nD) : FVec Ideal S8192x32 .f32 := W2 m ρ c (Proc.devRef .tc main_v7)
def v8At (c : Dev nD) : FVec Ideal S1x8192 .f32 := W2 m ρ c (Proc.devRef .tc main_v8)
/-- What the second stretch leaves in the buffer the matmul region reads as its second operand. -/
def v12At (c : Dev nD) : FVec Ideal S8192x32 .f32 := W3 m ρ c (Proc.devRef .tc main_v12)

/-- The second host stretch: the gathered rows divided by the column sums, broadcast along each row. -/
theorem W3_v12 (c : Dev nD) : v12At m ρ c
    = Host.divf (v7At m ρ c) (broadcastInDim S8192x32 ![0, 1] bcast_S8192x1_S8192x32_0_1
        (broadcastInDim S8192x1 ![0] bcast_S8192_S8192x1_0 (shapeCast S8192 (v8At m ρ c) shapeCasts_S1x8192_S8192))) := by
  unfold v12At v7At v8At
  show StableHlo.after hostOps1 (W2 m ρ c) (Proc.devRef .tc main_v12) = _
  after_results <;> rfl

/-! ## The layout operations of the second stretch, read at an index -/

/-- The column broadcast [8192,1] → [8192,32] at (j, q) reads (j, 0). -/
theorem bcast_col_apply (y : FVec Ideal S8192x1 .f32) (j : Fin 8192) (q : Fin 32) :
    broadcastInDim S8192x32 ![0, 1] bcast_S8192x1_S8192x32_0_1 y (ix2 j q) = y (ix2 j (0 : Fin 1)) :=
  broadcastInDim_apply _ bcast_S8192x1_S8192x32_0_1 y (ix2 j q) (ix2 j (0 : Fin 1)) (fun a => match a with
    | ⟨0, _⟩ => by show j.val = if (8192 : Nat) = 1 then 0 else j.val; rw [if_neg (by decide)]
    | ⟨1, _⟩ => by show 0 = if (1 : Nat) = 1 then 0 else q.val; rw [if_pos rfl])

/-- The unit-axis broadcast [8192] → [8192,1] at (j, 0) reads j. -/
theorem bcast_unit_apply (y : FVec Ideal S8192 .f32) (j : Fin 8192) :
    broadcastInDim S8192x1 ![0] bcast_S8192_S8192x1_0 y (ix2 j (0 : Fin 1)) = y (ix1 j) :=
  broadcastInDim_apply _ bcast_S8192_S8192x1_0 y (ix2 j (0 : Fin 1)) (ix1 j) (fun a => match a with
    | ⟨0, _⟩ => by show j.val = if (8192 : Nat) = 1 then 0 else j.val; rw [if_neg (by decide)])

/-- The reshape [1,8192] → [8192] at j reads (0, j). -/
theorem row_cast_apply (y : FVec Ideal S1x8192 .f32) (j : Fin 8192) :
    shapeCast S8192 y shapeCasts_S1x8192_S8192 (ix1 j) = y (ix2 (0 : Fin 1) j) :=
  shapeCast_apply y shapeCasts_S1x8192_S8192 (ix1 j) (ix2 (0 : Fin 1) j)
    (by rewrite [Shape.rowMajor_val_two, Shape.rowMajor_val_one]; show 0 * 8192 + j.val = j.val; omega)

/-- The scaled operand the matmul region reads, at (j, q): the gathered row entry divided by column j's sum. -/
theorem scaled_apply (c : Dev nD)
    (h0 : ∀ q : Fin 8192, ((dat0 (V1 m ρ) c).arrAt 1 cfg0.N : S1x8192.Idx → EReal) (ix2 (0 : Fin 1) q) = Cert.ColNorm.cs (V1 m ρ c main_arg1) q)
    (j : Fin 8192) (q : Fin 32) :
    v12At m ρ c (ix2 j q) = Ideal.div (upK m c (ix2 j q)) (Cert.ColNorm.cs (m ((c.tc : Thread nD τ).loc main_arg1)) j) := by
  rw [W3_v12]
  show FloatOps.hostDivf (v7At m ρ c (ix2 j q)) _ = _
  rw [Ideal.hostDivf_def, show v7At m ρ c = upK m c from W2_v7 m ρ c]
  refine congrArg (Ideal.div _) ?_
  rw [bcast_col_apply, bcast_unit_apply, row_cast_apply]
  refine ((congrFun (W2_arr m ρ c 1) (ix2 (0 : Fin 1) j)).trans (h0 j)).trans ?_
  exact congrArg (fun A => Cert.ColNorm.cs A j) (W1_arg1 m ρ c)

/-- The matmul region's first operand and its output array, as it leaves it. -/
def a1At3 (c : Dev nD) : FVec Ideal S8192x8192 .f32 := V3 m ρ c main_arg1
def out1At (c : Dev nD) : FVec Ideal S8192x32 .f32 := (dat1 (V3 m ρ) c).arrAt 2 cfg1.N

/-- THE RESULT. With every column sum of A nonzero, the program's result buffer holds the reference's arrangement
    of A and the gathered rows, reshaped. -/
theorem W5_v14 (c : Dev nD)
    (h0 : ∀ q : Fin 8192, ((dat0 (V1 m ρ) c).arrAt 1 cfg0.N : S1x8192.Idx → EReal) (ix2 (0 : Fin 1) q) = Cert.ColNorm.cs (V1 m ρ c main_arg1) q)
    (h1 : ∀ (i : Fin 8192) (q : Fin 32), out1At m ρ c (ix2 i q) = ∑ j : Fin 8192, a1At3 m ρ c (ix2 i j) * v12At m ρ c (ix2 j q))
    (hcs : ∀ j, Cert.ColNorm.cs (m ((c.tc : Thread nD τ).loc main_arg1)) j ≠ 0) :
    (W5 m ρ c (Proc.devRef .tc main_v14) : FVec Ideal S1x32x8192 .f32)
      = shapeCast S1x32x8192 (Cert.ColNorm.G (m ((c.tc : Thread nD τ).loc main_arg1)) (upK m c)) shapeCasts_S8192x32_S1x32x8192 := by
  have e5 : (W5 m ρ c (Proc.devRef .tc main_v14) : FVec Ideal S1x32x8192 .f32)
      = shapeCast S1x32x8192 (out1At m ρ c) shapeCasts_S8192x32_S1x32x8192 := by
    have e : (W5 m ρ c (Proc.devRef .tc main_v14) : FVec Ideal S1x32x8192 .f32)
        = shapeCast S1x32x8192 (W4 m ρ c (Proc.devRef .tc main_v13) : FVec Ideal S8192x32 .f32) shapeCasts_S8192x32_S1x32x8192 := by
      show StableHlo.after hostOps2 (W4 m ρ c) (Proc.devRef .tc main_v14) = _
      after_results <;> rfl
    rw [e]
    exact congrArg (fun y : FVec Ideal S8192x32 .f32 => shapeCast S1x32x8192 y shapeCasts_S8192x32_S1x32x8192) (W4_arr m ρ c 2)
  rw [e5]
  refine congrArg (fun y : FVec Ideal S8192x32 .f32 => shapeCast S1x32x8192 y shapeCasts_S8192x32_S1x32x8192) ?_
  funext x
  obtain ⟨i, q, rfl⟩ : ∃ (i : Fin 8192) (q : Fin 32), x = ix2 i q := ⟨x 0, x 1, eq_ix2 x⟩
  rw [h1 i q, Cert.ColNorm.G_eq_scaled _ _ hcs i q]
  refine Finset.sum_congr rfl fun j _ => ?_
  rw [scaled_apply m ρ c h0 j q]
  have ha : a1At3 m ρ c = m ((c.tc : Thread nD τ).loc main_arg1) := W3_arg1 m ρ c
  rw [ha]

end Cert.KernelIdeal.Hand

end
-- ==== Proof.ColsumValue.lean ====
/-
  The column-sum region's value: the output array ends holding, at every column, the sum of that column of the input.
-/
import proofs.«170147_j69904887710045_1_alg».proof.Proof.ColsumDat
import proofs.«170147_j69904887710045_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The body's two values at an index -/

/-- The reset value is zero everywhere. -/
theorem k0_pay1_apply (q : Fin 2048) : k0_pay1 (F := Ideal) (ix2 (0 : Fin 1) q) = 0 := by
  unfold k0_pay1
  rw [shapeCast_self]
  exact Ideal.ofBits_zero_f32

/-- The sum of a 2048 x 2048 block over its rows, at column q. -/
theorem k0_rowsum_apply (x0 : Vec Ideal S2048x2048 .f32) (hφ : FKind.Formats .f32)
    (hacc : (0x00000000#32 : BitVec 32) = 0x00000000#32) (q : Fin 2048) :
    multiReduction (F := Ideal) .add [0] S2048 x0 0x00000000#32 reduces_S2048x2048_S2048 hφ hacc (ix1 q)
      = ∑ r : Fin 2048, x0 (ix2 r q) := by
  refine (Ideal.multiReduction_add_single x0 0x00000000#32 reduces_S2048x2048_S2048 hφ hacc (ix1 q)).trans ?_
  refine Finset.sum_congr rfl fun r _ => congrArg x0 ?_
  funext a
  match a with
  | ⟨0, _⟩ => rfl
  | ⟨1, _⟩ => rfl

/-- The accumulating value: the accumulator plus the block's column sums. -/
theorem k0_pay2_apply (xs : Vec Ideal S1x2048 .f32) (x0 : Vec Ideal S2048x2048 .f32) (q : Fin 2048) :
    k0_pay2 xs x0 (ix2 (0 : Fin 1) q) = xs (ix2 0 q) + ∑ r : Fin 2048, x0 (ix2 r q) := by
  unfold k0_pay2
  rw [shapeCast_self, addf_apply]
  congr 1
  refine (shapeCast_apply _ shapeCasts_S2048_S1x2048 (ix2 (0 : Fin 1) q) (ix1 q) ?_).trans (k0_rowsum_apply x0 _ _ q)
  rw [Shape.rowMajor_val_one, Shape.rowMajor_val_two]
  show q.val = 0 * _ + q.val
  omega

variable (V : (c : Dev nD) → (b : Ref sig .tc) → Buf (Elt Ideal) ((c : Thread nD τ).loc b))

/-! ## The input block at a point -/

/-- Point t = 4 j + i reads the block of row-block i = t mod 4 and column-block j = t div 4; the output's block is
    column-block j. -/
theorem idx0 : ∀ t : Fin cfg0.N, (win0_0.index t 0 = t.val % 4 ∧ win0_0.index t 1 = t.val / 4)
      ∧ (win0_1.index t 0 = 0 ∧ win0_1.index t 1 = t.val / 4) :=
  (by decide +kernel : ∀ t : Fin grid0.N, (win0_0.index t 0 = t.val % 4 ∧ win0_0.index t 1 = t.val / 4)
      ∧ (win0_1.index t 0 = 0 ∧ win0_1.index t 1 = t.val / 4))

/-- The input block at point t, at (r, q), is the array at row 2048 (t mod 4) + r and column 2048 (t div 4) + q. -/
theorem iblk0_apply (c : Dev nD) (t : Fin cfg0.N) (r q : Fin 2048) (row col : Fin 8192)
    (hrow : row.val = 2048 * (t.val % 4) + r.val) (hcol : col.val = 2048 * (t.val / 4) + q.val) :
    iblk0 V c 0 t (ix2 r q) = V c main_arg1 (ix2 row col) := by
  unfold iblk0
  rw [View.read_apply]
  show V c main_arg1 _ = V c main_arg1 _
  congr 1
  funext a
  apply Fin.ext
  match a with
  | ⟨0, _⟩ =>
    show win0_0.index t 0 * 2048 + 1 * r.val = row.val
    rw [(idx0 t).1.1, hrow]; omega
  | ⟨1, _⟩ =>
    show win0_0.index t 1 * 2048 + 1 * q.val = col.val
    rw [(idx0 t).1.2, hcol]; omega

/-! ## The accumulator is a partial column sum -/

/-- The sum of column col of A over its first k row-blocks of 2048 rows. -/
def colPart (A : Cert.ColNorm.SA.Idx → EReal) (col : Fin 8192) : ℕ → EReal
  | 0 => 0
  | k + 1 => colPart A col k + (if h : k < 4 then ∑ r : Fin 2048, A (ix2 ⟨2048 * k + r.val, by omega⟩ col) else 0)

theorem colPart_succ (A : Cert.ColNorm.SA.Idx → EReal) (col : Fin 8192) (k : ℕ) (hk : k < 4) :
    colPart A col (k + 1) = colPart A col k + ∑ r : Fin 2048, A (ix2 ⟨2048 * k + r.val, by omega⟩ col) := by
  show colPart A col k + (if h : k < 4 then _ else 0) = _
  rw [dif_pos hk]

/-- Over all four row-blocks it is the column's sum. -/
theorem colPart_four (A : Cert.ColNorm.SA.Idx → EReal) (col : Fin 8192) : colPart A col 4 = Cert.ColNorm.cs A col := by
  unfold Cert.ColNorm.cs
  rw [Cert.ColNorm.sum_blocks4_fold (fun i => A (ix2 i col)), colPart_succ A col 3 (by norm_num), colPart_succ A col 2 (by norm_num),
    colPart_succ A col 1 (by norm_num), colPart_succ A col 0 (by norm_num)]
  refine congrArg₂ (· + ·) (congrArg₂ (· + ·) (congrArg₂ (· + ·) (congrArg₂ (· + ·) rfl ?_) ?_) ?_) ?_ <;>
    exact Finset.sum_congr rfl fun r _ => congrArg (fun i => A (ix2 i col)) (Fin.mk_eq_mk.mpr (by omega))

/-- The accumulator after a first point of a column-block: the first row-block's sums. -/
theorem acc0_first_apply (c : Dev nD) (t : Fin cfg0.N) (h : t.val % 4 = 0) (q : Fin 2048) (col : Fin 8192)
    (hcol : col.val = 2048 * (t.val / 4) + q.val) :
    acc0 V c t.val t.isLt (ix2 (0 : Fin 1) q) = colPart (V c main_arg1) col 1 := by
  refine (congrFun (acc0_first V c t h) _).trans ?_
  refine (k0_pay2_apply _ _ q).trans ?_
  rw [k0_pay1_apply, colPart_succ _ _ 0 (by norm_num)]
  exact congrArg (0 + ·) (Finset.sum_congr rfl fun r _ =>
    iblk0_apply V c t r q _ col (by show 2048 * 0 + r.val = 2048 * (t.val % 4) + r.val; rw [h]) hcol)

/-- The accumulator after a later point: the accumulator before plus this row-block's sums. -/
theorem acc0_next_apply (c : Dev nD) (t : Fin cfg0.N) (h : ¬t.val % 4 = 0) (q : Fin 2048) (col : Fin 8192)
    (hcol : col.val = 2048 * (t.val / 4) + q.val)
    (prev : acc0 V c (t.val - 1) (Nat.lt_of_le_of_lt (Nat.sub_le _ _) t.isLt) (ix2 (0 : Fin 1) q)
      = colPart (V c main_arg1) col (t.val % 4)) :
    acc0 V c t.val t.isLt (ix2 (0 : Fin 1) q) = colPart (V c main_arg1) col (t.val % 4 + 1) := by
  refine (congrFun (acc0_next V c t h) _).trans ?_
  refine (k0_pay2_apply _ _ q).trans ?_
  rw [colPart_succ _ _ (t.val % 4) (Nat.mod_lt _ (by norm_num))]
  exact congrArg₂ (· + ·) prev (Finset.sum_congr rfl fun r _ => iblk0_apply V c t r q _ col rfl hcol)

/-- After position n = 4 j + i the accumulator holds, at column q of column-block j, the sum over row-blocks 0 … i. -/
theorem acc0_apply (c : Dev nD) : ∀ (n : ℕ) (hn : n < cfg0.N) (q : Fin 2048) (col : Fin 8192),
    col.val = 2048 * (n / 4) + q.val →
      acc0 V c n hn (ix2 (0 : Fin 1) q) = colPart (V c main_arg1) col (n % 4 + 1) := by
  intro n
  induction n with
  | zero =>
    intro hn q col hcol
    exact acc0_first_apply V c ⟨0, hn⟩ rfl q col hcol
  | succ n ih =>
    intro hn q col hcol
    by_cases h : (n + 1) % 4 = 0
    · have e := acc0_first_apply V c ⟨n + 1, hn⟩ h q col hcol
      rw [h]; exact e
    · refine acc0_next_apply V c ⟨n + 1, hn⟩ h q col hcol ?_
      have hk : (n + 1) % 4 = n % 4 + 1 := by omega
      have := ih (Nat.lt_of_succ_lt hn) q col (by omega)
      rw [show (⟨n + 1, hn⟩ : Fin cfg0.N).val % 4 = n % 4 + 1 from hk]
      exact this

/-! ## From the blocks written back to the array -/

/-- The column sums of the input, as contents of the output array. -/
def colsums0 (c : Dev nD) : Buf (Elt Ideal) ((c : Thread nD τ).loc main_v8) :=
  fun x => Cert.ColNorm.cs (V c main_arg1) (x 1)

/-- At the last point of column-block j the accumulator, at column y, is the column sum at the array's column
    2048 j + y. -/
theorem acc0_last_apply (c : Dev nD) (t : Fin cfg0.N) (h3 : t.val % 4 = 3) (y : S1x2048.Idx) (i : S1x8192.Idx)
    (hi : (i 1).val = 2048 * (t.val / 4) + (y 1).val) :
    acc0 V c t.val t.isLt y = colsums0 V c i := by
  obtain ⟨a, q, rfl⟩ : ∃ (a : Fin 1) (q : Fin 2048), y = ix2 a q := ⟨y 0, y 1, eq_ix2 y⟩
  obtain rfl : a = 0 := Subsingleton.elim _ _
  unfold colsums0
  rw [acc0_apply V c t.val t.isLt q (i 1) hi, h3]
  exact colPart_four _ _

/-- What a write-back writes is the block of the column sums it covers. -/
theorem flushed0_eq (c : Dev nD) (t : Fin cfg0.N) (hf : (cfg0.win 1).flush t = true) :
    (dat0 V c).flushed 1 t = ((cfg0.win 1).blk t).view.read (Elt Ideal) (colsums0 V c) := by
  have h3 : t.val % 4 = 3 := (flush0_1 t).mp hf
  show (cfg0.win 1).cut (grid0.coords t) ((dat0 V c).after 1 t) = _
  rw [after0_1]
  funext y
  rw [View.read_apply]
  refine acc0_last_apply V c t h3 _ _ ?_
  show win0_1.index t 1 * 2048 + 1 * (y 1).val = 2048 * (t.val / 4) + (y 1).val
  rw [(idx0 t).2.2]; omega

/-- Every column lies in the block written back at the last point of its column-block. -/
theorem cover0 (i : S1x8192.Idx) :
    ∃ t : Fin cfg0.N, (cfg0.win 1).flush t = true ∧ i ∈ ((cfg0.win 1).blk t).view.set := by
  have h0 : (i 0).val < 1 := idx2_lt0 i
  have h1 : (i 1).val < 8192 := idx2_lt1 i
  obtain ⟨t, ht⟩ : ∃ t : Fin cfg0.N, t.val = 4 * ((i 1).val / 2048) + 3 :=
    ⟨⟨4 * ((i 1).val / 2048) + 3, by rw [show cfg0.N = 16 from N_0]; omega⟩, rfl⟩
  refine ⟨t, (flush0_1 t).mpr (by omega), ?_⟩
  show i ∈ ((View.whole main_v8).slice (win0_1.rect t)).set
  rw [View.set_slice_whole, Rect.mem_set_unit]
  intro a
  match a with
  | ⟨0, _⟩ =>
    show win0_1.index t 0 * 1 ≤ (i 0 : ℕ) ∧ (i 0 : ℕ) < win0_1.index t 0 * 1 + 1
    rw [(idx0 t).2.1]; omega
  | ⟨1, _⟩ =>
    show win0_1.index t 1 * 2048 ≤ (i 1 : ℕ) ∧ (i 1 : ℕ) < win0_1.index t 1 * 2048 + 2048
    rw [(idx0 t).2.2]; omega

/-- The output array ends holding the column sums of the input. -/
theorem final0 (c : Dev nD) (q : Fin 8192) :
    ((dat0 V c).arrAt 1 cfg0.N : S1x8192.Idx → EReal) (ix2 (0 : Fin 1) q) = Cert.ColNorm.cs (V c main_arg1) q :=
  congrFun ((dat0 V c).arrAt_eq_of_cover 1 (colsums0 V c) (flushed0_eq V c) cover0) (ix2 (0 : Fin 1) q)

end Cert.KernelIdeal.Hand

end
-- ==== Proof.MatmulValue.lean ====
/-
  The value of the matmul region. Its grid has 8 x 4 points; point t = 4 i + k adds to a 1024 x 32 accumulator, zeroed
  at k = 0, the product of block (i, k) of the left array (1024 rows, 2048 columns) with block k of the right array
  (2048 rows, 32 columns), and at k = 3 copies the accumulator to block i of the result. Over the extended reals the
  operands' truncation is the identity and a block product is a plain sum, so after the points of row-block i the
  accumulator holds, entry by entry, the left-nested sum from zero of the four partial products of a row with a
  column: the whole product, since a sum over 8192 terms is the sum of its four consecutive blocks of 2048. The
  blocks written back tile the result, which therefore ends as the product of the two arrays as the region finds
  them.
-/
import proofs.«170147_j69904887710045_1_alg».proof.Proof.MatmulDat
import proofs.«170147_j69904887710045_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

variable (V : (c : Dev nD) → (b : Ref sig .tc) → Buf (Elt Ideal) ((c : Thread nD τ).loc b))

/-! ## The payloads at an index -/

/-- The block the accumulator is zeroed with is zero everywhere. -/
theorem pay1_apply (p : Fin 1024) (q : Fin 32) : k1_pay1 (F := Ideal) (ix2 p q) = 0 := by
  unfold k1_pay1
  rw [shapeCast_self]
  show Ideal.ofBits .f32 0x00000000#32 = 0
  exact Ideal.ofBits_zero_f32

/-! The operand indices of the block product at an output index i and a contraction index q: the left operand is read
    at row (i 0) and column q, the right one at row q and column (i 1). -/

theorem mm_lhs_0 (i : S1024x32.Idx) (q : dot_S1024x2048_S2048x32_S1024x32_1_0_0_1_n_n.contr.Idx) :
    (dot_S1024x2048_S2048x32_S1024x32_1_0_0_1_n_n.lhsIdx i q 0).val = (i 0).val := by
  unfold DotDims.lhsIdx
  rw [dif_neg (show ¬(0 : Fin S1024x2048.rank) ∈ dot_S1024x2048_S2048x32_S1024x32_1_0_0_1_n_n.lhsBatch by decide), dif_pos (show (0 : Fin S1024x2048.rank) ∈ dot_S1024x2048_S2048x32_S1024x32_1_0_0_1_n_n.lhsNonContracting by decide)]
  rfl
theorem mm_lhs_1 (i : S1024x32.Idx) (q : dot_S1024x2048_S2048x32_S1024x32_1_0_0_1_n_n.contr.Idx) :
    (dot_S1024x2048_S2048x32_S1024x32_1_0_0_1_n_n.lhsIdx i q 1).val = (q ⟨0, by decide⟩).val :=
  dot_S1024x2048_S2048x32_S1024x32_1_0_0_1_n_n.lhsIdx_val_of_single rfl i q
theorem mm_rhs_0 (i : S1024x32.Idx) (q : dot_S1024x2048_S2048x32_S1024x32_1_0_0_1_n_n.contr.Idx) :
    (dot_S1024x2048_S2048x32_S1024x32_1_0_0_1_n_n.rhsIdx i q 0).val = (q ⟨0, by decide⟩).val :=
  dot_S1024x2048_S2048x32_S1024x32_1_0_0_1_n_n.rhsIdx_val_of_single rfl i q
theorem mm_rhs_1 (i : S1024x32.Idx) (q : dot_S1024x2048_S2048x32_S1024x32_1_0_0_1_n_n.contr.Idx) :
    (dot_S1024x2048_S2048x32_S1024x32_1_0_0_1_n_n.rhsIdx i q 1).val = (i 1).val := by
  unfold DotDims.rhsIdx
  rw [dif_neg (show ¬(1 : Fin S2048x32.rank) ∈ dot_S1024x2048_S2048x32_S1024x32_1_0_0_1_n_n.rhsBatch by decide), dif_pos (show (1 : Fin S2048x32.rank) ∈ dot_S1024x2048_S2048x32_S1024x32_1_0_0_1_n_n.rhsNonContracting by decide)]
  rfl

/-- The product of a 1024 x 2048 block with a 2048 x 32 block onto the zero block, at an index: the row times the column. -/
theorem mm_apply (y0 : FVec Ideal S1024x2048 .bf16) (y1 : FVec Ideal S2048x32 .bf16) (p : Fin 1024) (q : Fin 32) :
    FloatOps.matmul (F := Ideal) dot_S1024x2048_S2048x32_S1024x32_1_0_0_1_n_n none y0 y1
        (constant (F := Ideal) S1024x32 .f32 0x00000000#32) (ix2 p q)
      = ∑ j : Fin 2048, y0 (ix2 p j) * y1 (ix2 j q) := by
  rw [Ideal.matmul_constant_zero_apply,
    ← Equiv.sum_comp (contrEquiv1 dot_S1024x2048_S2048x32_S1024x32_1_0_0_1_n_n 2048 rfl rfl).symm]
  refine Finset.sum_congr rfl fun k _ => ?_
  have hk := contrEquiv1_symm_val dot_S1024x2048_S2048x32_S1024x32_1_0_0_1_n_n 2048 rfl rfl k
  have el : dot_S1024x2048_S2048x32_S1024x32_1_0_0_1_n_n.lhsIdx (ix2 p q) ((contrEquiv1 dot_S1024x2048_S2048x32_S1024x32_1_0_0_1_n_n 2048 rfl rfl).symm k) = ix2 p k := funext fun a => Fin.ext (by
    match a with
    | ⟨0, _⟩ => exact mm_lhs_0 _ _
    | ⟨1, _⟩ => exact (mm_lhs_1 _ _).trans hk)
  have er : dot_S1024x2048_S2048x32_S1024x32_1_0_0_1_n_n.rhsIdx (ix2 p q) ((contrEquiv1 dot_S1024x2048_S2048x32_S1024x32_1_0_0_1_n_n 2048 rfl rfl).symm k) = ix2 k q := funext fun a => Fin.ext (by
    match a with
    | ⟨0, _⟩ => exact (mm_rhs_0 _ _).trans hk
    | ⟨1, _⟩ => exact mm_rhs_1 _ _)
  rw [el, er]

/-- One step of the accumulation at an index: the old value plus the row of the left block times the column of the
    right block (the truncation of the operands is the identity on the extended reals). -/
theorem pay2_apply (x0 : Vec Ideal S1024x2048 .f32) (x1 : Vec Ideal S2048x32 .f32) (xs : Vec Ideal S1024x32 .f32)
    (p : Fin 1024) (q : Fin 32) :
    k1_pay2 x0 x1 xs (ix2 p q) = xs (ix2 p q) + ∑ j : Fin 2048, x0 (ix2 p j) * x1 (ix2 j q) := by
  unfold k1_pay2
  rw [shapeCast_self, shapeCast_self]
  exact congrArg (xs (ix2 p q) + ·) (mm_apply (truncf .bf16 (x0 : FVec Ideal S1024x2048 .f32) bitsLt_bf16_f32)
    (truncf .bf16 (x1 : FVec Ideal S2048x32 .f32) bitsLt_bf16_f32) p q)

/-! ## The blocks the points read

Point t = 4 i + k of the grid reads the block of the left array at block row i = t / 4 and block column k = t % 4, and
the block of the right array at block row k; it writes the block of the result at block row i. -/

/-- The block indices of the three windows at every point of the grid. -/
theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

theorem lt_N1 (t : Fin cfg1.N) : t.val < 32 := lt_of_lt_of_eq t.isLt (show cfg1.N = 32 from N_1)

/-- The row of the left array that row p of the block at point t is. -/
abbrev rowAt (n : ℕ) (hn : n < 32) (p : Fin 1024) : Fin 8192 := ⟨1024 * (n / 4) + p.val, by have := p.isLt; omega⟩
/-- The column of the left array (row of the right one) that column j of block k is. -/
abbrev colAt (k : ℕ) (hk : k < 4) (j : Fin 2048) : Fin 8192 := ⟨2048 * k + j.val, by have := j.isLt; omega⟩

/-- The left block at point t, at an index. -/
theorem iblk1_0_apply (c : Dev nD) (t : Fin cfg1.N) (p : Fin 1024) (j : Fin 2048) :
    iblk1 V c 0 t (ix2 p j)
      = V c main_arg1 (ix2 (rowAt t.val (lt_N1 t) p) (colAt (t.val % 4) (Nat.mod_lt _ (by decide)) j)) := by
  obtain ⟨e0, e1, -, -, -, -⟩ := idx_facts1 t
  unfold iblk1
  rw [View.read_apply]
  show V c main_arg1 _ = V c main_arg1 _
  congr 1
  funext a
  apply Fin.ext
  match a with
  | ⟨0, _⟩ => show win1_0.index t (0 : Fin 2) * 1024 + 1 * p.val = 1024 * (t.val / 4) + p.val; rw [e0]; omega
  | ⟨1, _⟩ => show win1_0.index t (1 : Fin 2) * 2048 + 1 * j.val = 2048 * (t.val % 4) + j.val; rw [e1]; omega

/-- The right block at point t, at an index. -/
theorem iblk1_1_apply (c : Dev nD) (t : Fin cfg1.N) (j : Fin 2048) (q : Fin 32) :
    iblk1 V c 1 t (ix2 j q) = V c main_v12 (ix2 (colAt (t.val % 4) (Nat.mod_lt _ (by decide)) j) q) := by
  obtain ⟨-, -, e0, e1, -, -⟩ := idx_facts1 t
  unfold iblk1
  rw [View.read_apply]
  show V c main_v12 _ = V c main_v12 _
  congr 1
  funext a
  apply Fin.ext
  match a with
  | ⟨0, _⟩ => show win1_1.index t (0 : Fin 2) * 2048 + 1 * j.val = 2048 * (t.val % 4) + j.val; rw [e0]; omega
  | ⟨1, _⟩ => show win1_1.index t (1 : Fin 2) * 32 + 1 * q.val = q.val; rw [e1]; omega

/-! ## The accumulator is a partial product

Over a row-block the accumulator runs through the left-nested sums, from zero, of the products of the row's consecutive
blocks of 2048 columns with the matching blocks of rows of the right array. -/

section Partial

variable (A : S8192x8192.Idx → EReal) (S : S8192x32.Idx → EReal)

/-- Block k of the product of row i of A with column q of S (zero past the fourth block). -/
def blkT (i : Fin 8192) (q : Fin 32) (k : ℕ) : EReal :=
  if h : k < 4 then ∑ j : Fin 2048, A (ix2 i (colAt k h j)) * S (ix2 (colAt k h j) q) else 0

/-- The left-nested sum of the first k blocks, from zero. -/
def pm (i : Fin 8192) (q : Fin 32) : ℕ → EReal
  | 0 => 0
  | k + 1 => pm i q k + blkT A S i q k

theorem pm_zero (i : Fin 8192) (q : Fin 32) : pm A S i q 0 = 0 := rfl
theorem pm_succ (i : Fin 8192) (q : Fin 32) (k : ℕ) : pm A S i q (k + 1) = pm A S i q k + blkT A S i q k := rfl

/-- A block of the product as the sum of the terms of the whole product at the block's offset. -/
theorem blkT_eq (i : Fin 8192) (q : Fin 32) (k : ℕ) (hk : k < 4) (off : ℕ) (hoff : off = 2048 * k) :
    blkT A S i q k = ∑ r : Fin 2048, (fun j : Fin 8192 => A (ix2 i j) * S (ix2 j q)) ⟨off + r.val, by have := r.isLt; omega⟩ := by
  subst hoff
  unfold blkT
  rw [dif_pos hk]

/-- The four blocks make the whole product of the row with the column. -/
theorem pm_four (i : Fin 8192) (q : Fin 32) : pm A S i q 4 = ∑ j : Fin 8192, A (ix2 i j) * S (ix2 j q) := by
  refine Eq.trans ?_ (Cert.ColNorm.sum_blocks4_fold (fun j : Fin 8192 => A (ix2 i j) * S (ix2 j q))).symm
  show (((0 + blkT A S i q 0) + blkT A S i q 1) + blkT A S i q 2) + blkT A S i q 3 = _
  rw [blkT_eq A S i q 0 (by decide) 0 rfl, blkT_eq A S i q 1 (by decide) 2048 rfl, blkT_eq A S i q 2 (by decide) 4096 rfl,
    blkT_eq A S i q 3 (by decide) 6144 rfl]
  refine congrArg (fun z => ((0 + z + _) + _) + _) ?_
  exact Finset.sum_congr rfl fun r _ => congrArg (fun j : Fin 8192 => A (ix2 i j) * S (ix2 j q)) (Fin.ext (Nat.zero_add _))

end Partial

/-- One step of the accumulation at point t, at an index: the old value plus the block of the product the point's
    blocks make. -/
theorem step1 (c : Dev nD) (t : Fin cfg1.N) (xs : Vec Ideal S1024x32 .f32) (p : Fin 1024) (q : Fin 32) :
    k1_pay2 (iblk1 V c 0 t) (iblk1 V c 1 t) xs (ix2 p q)
      = xs (ix2 p q) + blkT (V c main_arg1 : S8192x8192.Idx → EReal) (V c main_v12 : S8192x32.Idx → EReal)
          (rowAt t.val (lt_N1 t) p) q (t.val % 4) := by
  refine (pay2_apply (iblk1 V c 0 t) (iblk1 V c 1 t) xs p q).trans (congrArg (xs (ix2 p q) + ·) ?_)
  unfold blkT
  rw [dif_pos (Nat.mod_lt _ (by decide))]
  exact Finset.sum_congr rfl fun j _ => congrArg₂ (· * ·) (iblk1_0_apply V c t p j) (iblk1_1_apply V c t j q)

/-- The accumulator after position n, at an index: the sum of the first n % 4 + 1 blocks of the product of the row
    with the column. By induction on the position. -/
theorem acc1_apply (c : Dev nD) : ∀ (n : ℕ) (hn : n < cfg1.N) (p : Fin 1024) (q : Fin 32),
    acc1 V c n hn (ix2 p q)
      = pm (V c main_arg1 : S8192x8192.Idx → EReal) (V c main_v12 : S8192x32.Idx → EReal)
          (rowAt n (lt_of_lt_of_eq hn N_1) p) q (n % 4 + 1)
  | 0, hn, p, q => by
    rw [acc1_first V c ⟨0, hn⟩ rfl]
    refine (step1 V c ⟨0, hn⟩ (k1_pay1 (F := Ideal)) p q).trans ?_
    rw [pay1_apply]
    rfl
  | n + 1, hn, p, q => by
    have h32 : n + 1 < 32 := lt_of_lt_of_eq hn N_1
    by_cases h0 : (n + 1) % 4 = 0
    · rw [acc1_first V c ⟨n + 1, hn⟩ h0]
      refine (step1 V c ⟨n + 1, hn⟩ (k1_pay1 (F := Ideal)) p q).trans ?_
      rw [pay1_apply]
      show 0 + blkT _ _ _ q ((n + 1) % 4) = pm _ _ _ q ((n + 1) % 4 + 1)
      rw [h0]
      rfl
    · rw [acc1_next V c ⟨n + 1, hn⟩ h0]
      refine (step1 V c ⟨n + 1, hn⟩ _ p q).trans ?_
      show acc1 V c n _ (ix2 p q) + blkT _ _ _ q ((n + 1) % 4) = pm _ _ _ q ((n + 1) % 4 + 1)
      rw [acc1_apply c n (Nat.lt_of_succ_lt hn) p q]
      have e1 : n % 4 + 1 = (n + 1) % 4 := by omega
      have e2 : rowAt n (by omega) p = rowAt (n + 1) h32 p := Fin.ext (by show 1024 * (n / 4) + p.val = 1024 * ((n + 1) / 4) + p.val; omega)
      rw [e2, e1]
      rfl

/-! ## From the blocks to the array -/

/-- The two arrays the region reads, as it finds them, and the array it writes, as it leaves it, as arrays of extended
    reals. -/
def inA (c : Dev nD) : S8192x8192.Idx → EReal := V c main_arg1
def inS (c : Dev nD) : S8192x32.Idx → EReal := V c main_v12
def outP (c : Dev nD) : S8192x32.Idx → EReal := (dat1 V c).arrAt 2 cfg1.N

/-- The product of the two arrays as the region finds them. -/
def G1 (c : Dev nD) : S8192x32.Idx → EReal :=
  fun x => ∑ j : Fin 8192, inA V c (ix2 (x 0) j) * inS V c (ix2 j (x 1))

/-- The accumulator after position n at any index of its block. -/
theorem acc1_apply_idx (c : Dev nD) (n : ℕ) (hn : n < cfg1.N) (x : S1024x32.Idx) :
    acc1 V c n hn x = pm (inA V c) (inS V c) (rowAt n (lt_of_lt_of_eq hn N_1) (x 0)) (x 1) (n % 4 + 1) :=
  (congrArg (acc1 V c n hn) (eq_ix2 x)).trans (acc1_apply V c n hn (x 0) (x 1))

/-- What the last point of a row-block writes back is its block of the product. -/
theorem flushed1_eq (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  obtain ⟨-, -, -, -, e0, e1⟩ := idx_facts1 t
  show (cfg1.win 2).cut (grid1.coords t) ((dat1 V c).after 2 t) = _
  rw [after1_2]
  funext y
  rw [View.read_apply]
  show acc1 V c t.val t.isLt (win1_2.xinj (grid1.coords t) y) = G1 V c (((cfg1.win 2).blk t).view.emb y)
  rw [acc1_apply_idx, h3]
  show pm _ _ _ _ 4 = _
  refine (pm_four _ _ _ _).trans ?_
  unfold G1
  have r0 : rowAt t.val (lt_N1 t) (win1_2.xinj (grid1.coords t) y 0) = (((cfg1.win 2).blk t).view.emb y 0 : Fin 8192) :=
    Fin.ext (by show 1024 * (t.val / 4) + (y 0).val = win1_2.index t (0 : Fin 2) * 1024 + 1 * (y 0).val; rw [e0]; omega)
  have r1 : (win1_2.xinj (grid1.coords t) y 1 : Fin 32) = (((cfg1.win 2).blk t).view.emb y 1 : Fin 32) :=
    Fin.ext (by show (y 1).val = win1_2.index t (1 : Fin 2) * 32 + 1 * (y 1).val; rw [e1]; omega)
  exact Finset.sum_congr rfl fun j _ => congrArg₂ (· * ·)
    (congrArg (fun r : Fin 8192 => inA V c (ix2 r j)) r0) (congrArg (fun s : Fin 32 => inS V c (ix2 j s)) r1)

/-- Every row of the result lies in the block of the last point of its row-block. -/
theorem cover1 (i : S8192x32.Idx) :
    ∃ t : Fin cfg1.N, (cfg1.win 2).flush t = true ∧ i ∈ ((cfg1.win 2).blk t).view.set := by
  have hi0 : (i 0).val < 8192 := (i 0).isLt
  have hi1 : (i 1).val < 32 := (i 1).isLt
  obtain ⟨t, ht⟩ : ∃ t : Fin cfg1.N, t.val = 4 * ((i 0).val / 1024) + 3 :=
    ⟨⟨4 * ((i 0).val / 1024) + 3, by rw [show cfg1.N = 32 from N_1]; omega⟩, rfl⟩
  obtain ⟨-, -, -, -, e0, e1⟩ := idx_facts1 t
  refine ⟨t, (flush1_2 t).mpr (by rw [ht]; omega), ?_⟩
  show i ∈ ((View.whole main_v13).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0, ht]; omega
  | ⟨1, _⟩ =>
    show win1_2.index t (1 : Fin 2) * 32 ≤ (i 1).val ∧ (i 1).val < win1_2.index t (1 : Fin 2) * 32 + 32
    rw [e1]; omega

/-- The result array after the region is the product of the two arrays. -/
theorem final1_arr (c : Dev nD) : (dat1 V c).arrAt 2 cfg1.N = G1 V c :=
  (dat1 V c).arrAt_eq_of_cover 2 (G1 V c) (flushed1_eq V c) cover1

/-- The same, at an index. -/
theorem final1 (c : Dev nD) (i : Fin 8192) (q : Fin 32) :
    outP V c (ix2 i q) = ∑ j : Fin 8192, inA V c (ix2 i j) * inS V c (ix2 j q) :=
  congrFun (final1_arr V c) (ix2 i q)

end Cert.KernelIdeal.Hand

end
-- ==== Proof.RefIsG.lean ====
/-
  The reference's product stage is the arrangement `G` of the specification: every entry of `A` divided by the sum
  of its column, the result multiplied with the right operand. Stated for arbitrary arrays, index by index: the product
  read at an output index is a sum over the contracted axis; its left factor is the quotient of an entry of `A` by the
  twice-broadcast column sum read at the entry's column; and the column sum, accumulated from the constant zero, is the
  plain sum of the column.
-/
import proofs.«170147_j69904887710045_1_alg».proof.Proof.Gen.ReferenceIdeal.Read
import proofs.«170147_j69904887710045_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The product of two arbitrary arrays read at an output index: the sum, over the contracted axis, of the left
    operand's row entry times the right operand's column entry. -/
theorem dot_apply (y0 : FVec Ideal S8192x8192 .f32) (y1 : FVec Ideal S8192x32 .f32) (x : S8192x32.Idx) :
    Host.dotGeneral dot_S8192x8192_S8192x32_S8192x32_1_0_0_1_n_n none y0 y1 x
      = ∑ k : Fin 8192, y0 (ix2 (x 0) k) * y1 (ix2 k (x 1)) := by
  simp only [Host.dotGeneral]
  rw [Ideal.dotGeneral_apply, ← Equiv.sum_comp (contrEquiv1 dot_S8192x8192_S8192x32_S8192x32_1_0_0_1_n_n 8192 rfl rfl).symm]
  refine Finset.sum_congr rfl fun k _ => ?_
  have hk := contrEquiv1_symm_val dot_S8192x8192_S8192x32_S8192x32_1_0_0_1_n_n 8192 rfl rfl k
  have el : dot_S8192x8192_S8192x32_S8192x32_1_0_0_1_n_n.lhsIdx x ((contrEquiv1 dot_S8192x8192_S8192x32_S8192x32_1_0_0_1_n_n 8192 rfl rfl).symm k) = ix2 (x 0) k := funext fun a => Fin.ext (by
    match a with
    | ⟨0, _⟩ => exact lhs_main_v12_0 _ _
    | ⟨1, _⟩ => exact (lhs_main_v12_1 _ _).trans hk)
  have er : dot_S8192x8192_S8192x32_S8192x32_1_0_0_1_n_n.rhsIdx x ((contrEquiv1 dot_S8192x8192_S8192x32_S8192x32_1_0_0_1_n_n 8192 rfl rfl).symm k) = ix2 k (x 1) := funext fun a => Fin.ext (by
    match a with
    | ⟨0, _⟩ => exact (rhs_main_v12_0 _ _).trans hk
    | ⟨1, _⟩ => exact rhs_main_v12_1 _ _)
  exact congrArg₂ (· * ·) (congrArg y0 el) (congrArg y1 er)

/-- The twice-broadcast column sums read at an entry `(i, j)`: the sum of column `j`. -/
theorem colsum_apply (A : FVec Ideal S8192x8192 .f32) (i j : Fin 8192) :
    broadcastInDim S8192x8192 ![0, 1] bcast_S1x8192_S8192x8192_0_1 (broadcastInDim S1x8192 ![1] bcast_S8192_S1x8192_1
      (Host.reduceAdd A (constant S_ .f32 0x00000000#32) reducesTo_S8192x8192_S8192_d0 h_S_)) (ix2 i j) = Cert.ColNorm.cs A j := by
  show val_main_v10 (F := Ideal) A (ix2 i j) = _
  rw [val_main_v10_apply, val_main_v9_apply, val_main_v8_apply, val_main_cst_apply, Ideal.ofBits_def, Ideal.ofBits_zero_f32, zero_add]
  exact Finset.sum_congr rfl fun r _ => congrArg A (funext fun a => by match a with | ⟨0, _⟩ => rfl | ⟨1, _⟩ => rfl)

/-- The reference's product stage, for arbitrary arrays, is `G`. -/
theorem ref_is_G (A : FVec Ideal S8192x8192 .f32) (up : FVec Ideal S8192x32 .f32) :
    Host.dotGeneral dot_S8192x8192_S8192x32_S8192x32_1_0_0_1_n_n none (Host.divf A (broadcastInDim S8192x8192 ![0, 1] bcast_S1x8192_S8192x8192_0_1 (broadcastInDim S1x8192 ![1] bcast_S8192_S1x8192_1 (Host.reduceAdd A (constant S_ .f32 0x00000000#32) reducesTo_S8192x8192_S8192_d0 h_S_)))) up = Cert.ColNorm.G A up := by
  funext x
  rw [dot_apply]
  refine Finset.sum_congr rfl fun k _ => congrArg (· * up (ix2 k (x 1))) ?_
  show Ideal.div (A (ix2 (x 0) k)) _ = Ideal.div (A (ix2 (x 0) k)) (Cert.ColNorm.cs A k)
  exact congrArg (Ideal.div (A (ix2 (x 0) k))) (colsum_apply A (x 0) k)

end Cert.ReferenceIdeal.RefValue

end
-- ==== Proof.PreDecode.lean ====
/-
  The precondition read back: its last conjunct says that no column sum of `A` is zero.

  The printed predicate is a conjunction of one-bit words. Its last conjunct reduces, by `and` over every column, the
  comparison "column sum ≠ 0"; when the whole predicate is the bit one, that reduction is one, so every compared element
  is one, and at the extended reals the comparison is one exactly when the two sides differ. The column sum the predicate
  compares is accumulated from the constant zero, so it is the plain sum of the column, and the constant it is compared
  with is zero.
-/
import proofs.«170147_j69904887710045_1_alg».proof.Pre_finite_inputs
import proofs.«170147_j69904887710045_1_alg».proof.Proof.Gen.Pre_finite_inputs
import Idealize.ShloMosaic.Lib.ReduceAll
import Idealize.ShloMosaic.Lib.WordArith
import Idealize.ShloMosaic.PureOps.Ideal.Laws
import proofs.«170147_j69904887710045_1_alg».proof.Proof.Spec

noncomputable section

open scoped BigOperators

namespace Cert.ColNorm

open Idealize.ShloMosaic Idealize.ShloMosaic.ValueIdx

variable [Cert.Pre_finite_inputs.Facts]
open Cert.Pre_finite_inputs.Facts

/-- The rank-zero shape has one index. -/
instance : Subsingleton Cert.Pre_finite_inputs.S_.Idx := ⟨fun _ _ => funext fun d => d.elim0⟩

/-- The sum over the rows from the constant zero, read at column `j`, is the column sum. -/
theorem colsum_pre (A : FVec Ideal Cert.Pre_finite_inputs.S8192x8192 .f32) (j : Fin 8192) :
    Host.reduceAdd A (constant (F := Ideal) Cert.Pre_finite_inputs.S_ .f32 0x00000000#32)
      reducesTo_S8192x8192_S8192_d0 h_S_ (ix1 j) = cs A j := by
  simp only [Host.reduceAdd, Ideal.hostReduceAdd_def]
  rw [Ideal.hostReduceAdd_single reducesTo_S8192x8192_S8192_d0 (by decide)]
  show Ideal.ofBits .f32 0x00000000#32 + _ = _
  rw [Ideal.ofBits_zero_f32, zero_add]
  exact Finset.sum_congr rfl fun k _ => congrArg A (funext fun a => Fin.ext (by match a with | ⟨0, _⟩ => rfl | ⟨1, _⟩ => rfl))

/-- Under the precondition no column sum of `A` is zero. -/
theorem cs_ne_zero_of_pre (x : FVec Ideal Cert.Pre_finite_inputs.S1x32x4096 .f32)
    (A : FVec Ideal Cert.Pre_finite_inputs.S8192x8192 .f32) (d : IVec Cert.Pre_finite_inputs.S8192 32)
    (h : Cert.Pre_finite_inputs.fn (F := Ideal) x A d = fun _ => 1#1) : ∀ j : Fin 8192, cs A j ≠ 0 := by
  intro j
  have h0 : Cert.Pre_finite_inputs.fn (F := Ideal) x A d ix0 = 1#1 := congrFun h ix0
  dsimp only [Cert.Pre_finite_inputs.fn] at h0
  obtain ⟨-, h12⟩ := IntOp.andi_eq_one.1 h0
  have h11 := Host.reduce_andi_all _ _ _ _ ix0 h12 (ix1 j)
  have h11' : Ideal.cmp .une (Host.reduceAdd A (constant (F := Ideal) Cert.Pre_finite_inputs.S_ .f32 0x00000000#32)
      reducesTo_S8192x8192_S8192_d0 h_S_ (ix1 j)) (Ideal.ofBits .f32 0x00000000#32) = 1#1 := h11
  rw [colsum_pre, Ideal.ofBits_zero_f32] at h11'
  exact of_decide_eq_true ((WordArith.ofBool_eq_one_iff _).1 h11')

end Cert.ColNorm

end
-- ==== Proof.lean ====
/-
  A column-normalised product: the reference computes out = (A / colsum A) · up, where colsum A is the row vector of
  A's column sums and up the parent rows gathered by the index vector; the kernel never forms A / colsum A: one
  pipelined pass accumulates the column sums (2048 x 2048 blocks of A, four row-blocks per column-block, in a VMEM
  accumulator), the host divides the gathered rows by them, and a second pass accumulates A · (up / colsum A) (1024 x
  2048 blocks of A against 2048 x 32 blocks of the scaled rows, four column-blocks per row-block). Over the extended
  reals the two agree entry by entry when every column sum is nonzero: (a / s) · u = a · (u / s) for s ≠ 0 by the
  commutativity and associativity of the product alone, and a sum split into four blocks is the sum (addition of
  extended reals is commutative and associative). At a zero column sum they differ (0 / 0 and x / 0 are read
  differently on the two sides), which is why the precondition carries the conjunct that every column sum of A is
  nonzero.
  The frames: each program runs to the end, faults nowhere and leaves its arguments as launched — for the kernel at
  both instances from the run over its five segments (three host stretches, two kernel regions), for the reference from
  its straight-line run.
-/
import proofs.«170147_j69904887710045_1_alg».proof.Defs
import proofs.«170147_j69904887710045_1_alg».proof.Proof.Gen.Kernel
import proofs.«170147_j69904887710045_1_alg».proof.Proof.Gen.KernelIdeal
import proofs.«170147_j69904887710045_1_alg».proof.Proof.Gen.ReferenceIdeal
import proofs.«170147_j69904887710045_1_alg».proof.Proof.Gen.ReferenceIdeal.Run
import proofs.«170147_j69904887710045_1_alg».proof.Proof.Gen.ReferenceIdeal.Read
import proofs.«170147_j69904887710045_1_alg».proof.Proof.Gen.Pre_finite_inputs
import proofs.«170147_j69904887710045_1_alg».proof.Proof.BKFrame
import proofs.«170147_j69904887710045_1_alg».proof.Proof.KFrame
import proofs.«170147_j69904887710045_1_alg».proof.Proof.KValue
import proofs.«170147_j69904887710045_1_alg».proof.Proof.ColsumValue
import proofs.«170147_j69904887710045_1_alg».proof.Proof.MatmulValue
import proofs.«170147_j69904887710045_1_alg».proof.Proof.RefIsG
import proofs.«170147_j69904887710045_1_alg».proof.Proof.PreDecode

noncomputable section

namespace Cert.Proof

open Idealize.ShloMosaic Idealize.ShloMosaic.TcCoe Idealize.SL.Sem

theorem frame_k : Cert.frame_Kernel := fun m ρ _ => Cert.Kernel.Hand.frame_all (F := Bits) m ρ
theorem frame_ki : Cert.frame_KernelIdeal := fun m ρ _ => Cert.KernelIdeal.Hand.frame_all (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance, from memories agreeing on the arguments and with every column sum of A nonzero, the
    kernel's result buffer and the reference's both end at the reshape of row i, column q ↦ Σ_j (A(i,j) / cs j) · up(j,q). -/
theorem algebraic : Cert.algebraic_KernelIdeal_ReferenceIdeal := by
  intro m ρ m' ρ' hpre hagree
  have hcs : ∀ c : Dev Cert.KernelIdeal.nD, ∀ j, Cert.ColNorm.cs (m ((c.tc : Thread Cert.KernelIdeal.nD Cert.KernelIdeal.τ).loc Cert.KernelIdeal.main_arg1)) j ≠ 0 :=
    fun c => Cert.ColNorm.cs_ne_zero_of_pre _ _ _ (hpre c)
  refine ⟨fun c => shapeCast Cert.KernelIdeal.S1x32x8192 (Cert.ColNorm.G (m ((c.tc : Thread Cert.KernelIdeal.nD Cert.KernelIdeal.τ).loc Cert.KernelIdeal.main_arg1)) (Cert.KernelIdeal.Hand.upK m c))
      Cert.KernelIdeal.Facts₀.shapeCasts_S8192x32_S1x32x8192, ?_, ?_⟩
  · refine (θ_run Cert.KernelIdeal.defs _ _).mono (fun r h c => ⟨?_, (h c Cert.KernelIdeal.main_arg0 (by decide)).trans (Cert.KernelIdeal.Hand.keep0 m ρ c),
      (h c Cert.KernelIdeal.main_arg1 (by decide)).trans (Cert.KernelIdeal.Hand.keep1 m ρ c),
      (h c Cert.KernelIdeal.main_arg2 (by decide)).trans (Cert.KernelIdeal.Hand.keep2 m ρ c)⟩) (Cert.KernelIdeal.Hand.run_all (F := Ideal) m ρ)
    exact (h c Cert.KernelIdeal.main_v14 (by decide)).trans
      (Cert.KernelIdeal.Hand.W5_v14 m ρ c (fun q => Cert.KernelIdeal.Hand.final0 (Cert.KernelIdeal.Hand.V1 m ρ) c q)
        (fun i q => Cert.KernelIdeal.Hand.final1 (Cert.KernelIdeal.Hand.V3 m ρ) c i q) (hcs c))
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2, Cert.ReferenceIdeal.RefValue.ref_is_G]
    unfold Cert.KernelIdeal.Hand.upK
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
